-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S200000x3 : Shape := ⟨2, ![200000, 3]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : FVec F S8192x512 .f32) (main_arg1 : IVec S200000x3 32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  main_v3
-- ==== Kernel.lean ====
abbrev S8192x512 : Shape := ⟨2, ![8192, 512]⟩
abbrev S200000x3 : Shape := ⟨2, ![200000, 3]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S1024x512 : Shape := ⟨2, ![1024, 512]⟩
abbrev S1024x1 : Shape := ⟨2, ![1024, 1]⟩
abbrev S1x1024 : Shape := ⟨2, ![1, 1024]⟩
abbrev S1024x1024 : Shape := ⟨2, ![1024, 1024]⟩
abbrev S200000x1 : Shape := ⟨2, ![200000, 1]⟩
abbrev S200000 : Shape := ⟨1, ![200000]⟩
abbrev S200000x2 : Shape := ⟨2, ![200000, 2]⟩
abbrev S1 : Shape := ⟨1, ![1]⟩

abbrev nBuf : Space → Nat
  | .hbm => 71
  | .vmem => 10
  | .smem => 0
  | _ => 0

abbrev bufTy : (tb : Table) → Fin (tcTables nBuf tb) → BufTy
  | .hbm, ⟨0, _⟩ => ⟨S8192x512, .f32⟩
  | .hbm, ⟨1, _⟩ => ⟨S200000x3, .i32⟩
  | .hbm, ⟨2, _⟩ => ⟨S8192x512, .bf16⟩
  | .hbm, ⟨3, _⟩ => ⟨S8192x512, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S1x8192, .f32⟩
  | .hbm, ⟨8, _⟩ => ⟨S8192x8192, .f32⟩
  | .hbm, ⟨9, _⟩ => ⟨S200000x1, .i32⟩
  | .hbm, ⟨10, _⟩ => ⟨S200000, .i32⟩
  | .hbm, ⟨11, _⟩ => ⟨S200000x1, .i32⟩
  | .hbm, ⟨12, _⟩ => ⟨S200000, .i32⟩
  | .hbm, ⟨13, _⟩ => ⟨S200000x1, .i32⟩
  | .hbm, ⟨14, _⟩ => ⟨S200000, .i32⟩
  | .hbm, ⟨15, _⟩ => ⟨S_, .i32⟩
  | .hbm, ⟨16, _⟩ => ⟨S200000, .i32⟩
  | .hbm, ⟨17, _⟩ => ⟨S200000, .i1⟩
  | .hbm, ⟨18, _⟩ => ⟨S_, .i32⟩
  | .hbm, ⟨19, _⟩ => ⟨S200000, .i32⟩
  | .hbm, ⟨20, _⟩ => ⟨S200000, .i32⟩
  | .hbm, ⟨21, _⟩ => ⟨S200000, .i32⟩
  | .hbm, ⟨22, _⟩ => ⟨S_, .i32⟩
  | .hbm, ⟨23, _⟩ => ⟨S200000, .i32⟩
  | .hbm, ⟨24, _⟩ => ⟨S200000, .i1⟩
  | .hbm, ⟨25, _⟩ => ⟨S_, .i32⟩
  | .hbm, ⟨26, _⟩ => ⟨S200000, .i32⟩
  | .hbm, ⟨27, _⟩ => ⟨S200000, .i32⟩
  | .hbm, ⟨28, _⟩ => ⟨S200000, .i32⟩
  | .hbm, ⟨29, _⟩ => ⟨S200000x1, .i32⟩
  | .hbm, ⟨30, _⟩ => ⟨S200000x1, .i32⟩
  | .hbm, ⟨31, _⟩ => ⟨S200000x2, .i32⟩
  | .hbm, ⟨32, _⟩ => ⟨S200000, .f32⟩
  | .hbm, ⟨33, _⟩ => ⟨S_, .i32⟩
  | .hbm, ⟨34, _⟩ => ⟨S200000, .i32⟩
  | .hbm, ⟨35, _⟩ => ⟨S200000, .i1⟩
  | .hbm, ⟨36, _⟩ => ⟨S_, .i32⟩
  | .hbm, ⟨37, _⟩ => ⟨S200000, .i32⟩
  | .hbm, ⟨38, _⟩ => ⟨S200000, .i32⟩
  | .hbm, ⟨39, _⟩ => ⟨S200000, .i32⟩
  | .hbm, ⟨40, _⟩ => ⟨S_, .i32⟩
  | .hbm, ⟨41, _⟩ => ⟨S200000, .i32⟩
  | .hbm, ⟨42, _⟩ => ⟨S200000, .i1⟩
  | .hbm, ⟨43, _⟩ => ⟨S_, .i32⟩
  | .hbm, ⟨44, _⟩ => ⟨S200000, .i32⟩
  | .hbm, ⟨45, _⟩ => ⟨S200000, .i32⟩
  | .hbm, ⟨46, _⟩ => ⟨S200000, .i32⟩
  | .hbm, ⟨47, _⟩ => ⟨S200000x1, .i32⟩
  | .hbm, ⟨48, _⟩ => ⟨S200000x1, .i32⟩
  | .hbm, ⟨49, _⟩ => ⟨S200000x2, .i32⟩
  | .hbm, ⟨50, _⟩ => ⟨S200000, .f32⟩
  | .hbm, ⟨51, _⟩ => ⟨S200000, .f32⟩
  | .hbm, ⟨52, _⟩ => ⟨S_, .f32⟩
  | .hbm, ⟨53, _⟩ => ⟨S200000, .f32⟩
  | .hbm, ⟨54, _⟩ => ⟨S200000, .f32⟩
  | .hbm, ⟨55, _⟩ => ⟨S200000, .f32⟩
  | .hbm, ⟨56, _⟩ => ⟨S200000, .f32⟩
  | .hbm, ⟨57, _⟩ => ⟨S200000, .i1⟩
  | .hbm, ⟨58, _⟩ => ⟨S200000, .f32⟩
  | .hbm, ⟨59, _⟩ => ⟨S200000, .f32⟩
  | .hbm, ⟨60, _⟩ => ⟨S200000, .f32⟩
  | .hbm, ⟨61, _⟩ => ⟨S200000, .f32⟩
  | .hbm, ⟨62, _⟩ => ⟨S200000, .f32⟩
  | .hbm, ⟨63, _⟩ => ⟨S200000, .f32⟩
  | .hbm, ⟨64, _⟩ => ⟨S200000, .f32⟩
  | .hbm, ⟨65, _⟩ => ⟨S200000, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S1, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1, .f32⟩
  | .local _ .vmem, ⟨5, _⟩ => ⟨S1024x1, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_c : Ref sig .tc := ⟨.hbm, 15, rfl⟩
abbrev main_v12 : Ref sig .tc := ⟨.hbm, 16, rfl⟩
abbrev main_v13 : Ref sig .tc := ⟨.hbm, 17, rfl⟩
abbrev main_c_0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_c_1 : Ref sig .tc := ⟨.hbm, 22, rfl⟩
abbrev main_v17 : Ref sig .tc := ⟨.hbm, 23, rfl⟩
abbrev main_v18 : Ref sig .tc := ⟨.hbm, 24, rfl⟩
abbrev main_c_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_c_3 : Ref sig .tc := ⟨.hbm, 33, rfl⟩
abbrev main_v26 : Ref sig .tc := ⟨.hbm, 34, rfl⟩
abbrev main_v27 : Ref sig .tc := ⟨.hbm, 35, rfl⟩
abbrev main_c_4 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_c_5 : Ref sig .tc := ⟨.hbm, 40, rfl⟩
abbrev main_v31 : Ref sig .tc := ⟨.hbm, 41, rfl⟩
abbrev main_v32 : Ref sig .tc := ⟨.hbm, 42, rfl⟩
abbrev main_c_6 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_call0_cst : Ref sig .tc := ⟨.hbm, 52, rfl⟩
abbrev main_call0_v0 : Ref sig .tc := ⟨.hbm, 53, rfl⟩
abbrev main_call0_v1 : Ref sig .tc := ⟨.hbm, 54, rfl⟩
abbrev main_call0_v2 : Ref sig .tc := ⟨.hbm, 55, rfl⟩
abbrev main_call0_v3 : Ref sig .tc := ⟨.hbm, 56, rfl⟩
abbrev main_call0_v4 : Ref sig .tc := ⟨.hbm, 57, rfl⟩
abbrev main_call0_v5 : Ref sig .tc := ⟨.hbm, 58, rfl⟩
abbrev main_call0_v6 : Ref sig .tc := ⟨.hbm, 59, rfl⟩
abbrev main_call0_v7 : Ref sig .tc := ⟨.hbm, 60, rfl⟩
abbrev main_call0_v8 : Ref sig .tc := ⟨.hbm, 61, rfl⟩
abbrev main_call0_v9 : Ref sig .tc := ⟨.hbm, 62, rfl⟩
abbrev main_call0_v10 : Ref sig .tc := ⟨.hbm, 63, rfl⟩
abbrev main_call0_v11 : Ref sig .tc := ⟨.hbm, 64, rfl⟩
abbrev main_v41 : Ref sig .tc := ⟨.hbm, 65, rfl⟩
abbrev main_cst_7 : Ref sig .tc := ⟨.hbm, 66, rfl⟩
abbrev main_v42 : Ref sig .tc := ⟨.hbm, 67, rfl⟩
abbrev main_cst_8 : Ref sig .tc := ⟨.hbm, 68, rfl⟩
abbrev main_v43 : Ref sig .tc := ⟨.hbm, 69, rfl⟩
abbrev main_v44 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bitsLt_bf16_f32 : FTy.bits .bf16 < FTy.bits .f32
  reducesTo_S8192x512_S8192_d1 : S8192x512.ReducesTo [1] S8192
  h_S_ : 0 < S_.numel
  shapeCasts_S8192_S8192x1 : S8192.ShapeCasts S8192x1
  shapeCasts_S8192_S1x8192 : S8192.ShapeCasts S1x8192
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  slices_S200000x3_S200000x1_0_0 : S200000x3.Slices ![0, 0] S200000x1
  shapeCasts_S200000x1_S200000 : S200000x1.ShapeCasts S200000
  slices_S200000x3_S200000x1_0_1 : S200000x3.Slices ![0, 1] S200000x1
  slices_S200000x3_S200000x1_0_2 : S200000x3.Slices ![0, 2] S200000x1
  bcast_S_S200000 : S_.BroadcastsInDim S200000 (![] : Fin 0 → Fin S200000.rank)
  bcast_S200000_S200000x1_0 : S200000.BroadcastsInDim S200000x1 (![0] : Fin 1 → Fin S200000x1.rank)
  concatenates_S200000x1_S200000x1_S200000x2_d1 : Shape.Concatenates [S200000x1, S200000x1] S200000x2 1
  reducesTo_S200000_S_d0 : S200000.ReducesTo [0] S_
  shapeCasts_S_S1 : S_.ShapeCasts S1
  dot_S1024x512_S1024x512_S1024x1024_1_1_0_0_n_n_wf : DotDims.WF S1024x512 S1024x512 S1024x1024 [1] [1] [0] [0] [] []
  gather_S8192x8192_S200000x2_S200000_n_01_n_n_01_1_11_wf : GatherDims.WF S8192x8192 S200000x2 S200000 [] [0, 1] [] [0, 1] [] 1 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .bf16 = 32 ∨ (Rect.block (s := S8192x512) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S8192x512.size a
  hwx0_1 : ∀ i : grid0.Coords, EltTy.bits .bf16 = 32 ∨ (Rect.block (s := S8192x512) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .f32 = 32 ∨ (Rect.block (s := S1x8192) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x8192.size a
  hwx0_4 : ∀ i : grid0.Coords, EltTy.bits .f32 = 32 ∨ (Rect.block (s := S8192x8192) S1024x1024.size (cc0_transform_4 i) (hinb0_4 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf
def gather_S8192x8192_S200000x2_S200000_n_01_n_n_01_1_11 : GatherDims S8192x8192 S200000x2 S200000 where
  offsetDims := []
  collapsedSliceDims := [0, 1]
  operandBatchingDims := []
  startIndicesBatchingDims := []
  startIndexMap := [0, 1]
  indexVectorDim := 1
  sliceSizes := ![1, 1]
  wf := gather_S8192x8192_S200000x2_S200000_n_01_n_n_01_1_11_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x512 : Shape := ⟨2, ![8192, 512]⟩
abbrev S200000x3 : Shape := ⟨2, ![200000, 3]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S512x8192 : Shape := ⟨2, ![512, 8192]⟩
abbrev S200000x1 : Shape := ⟨2, ![200000, 1]⟩
abbrev S200000 : Shape := ⟨1, ![200000]⟩
abbrev S200000x2 : Shape := ⟨2, ![200000, 2]⟩
abbrev S1 : Shape := ⟨1, ![1]⟩

abbrev nBuf : Space → Nat
  | .hbm => 81
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S200000x3, .i32⟩
  | .hbm, ⟨2, _⟩ => ⟨S8192x512, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S1x8192, .f32⟩
  | .hbm, ⟨7, _⟩ => ⟨S8192x8192, .f32⟩
  | .hbm, ⟨8, _⟩ => ⟨S8192x8192, .f32⟩
  | .hbm, ⟨9, _⟩ => ⟨S8192x8192, .f32⟩
  | .hbm, ⟨10, _⟩ => ⟨S512x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S200000x1, .i32⟩
  | .hbm, ⟨20, _⟩ => ⟨S200000, .i32⟩
  | .hbm, ⟨21, _⟩ => ⟨S200000x1, .i32⟩
  | .hbm, ⟨22, _⟩ => ⟨S200000, .i32⟩
  | .hbm, ⟨23, _⟩ => ⟨S200000x1, .i32⟩
  | .hbm, ⟨24, _⟩ => ⟨S200000, .i32⟩
  | .hbm, ⟨25, _⟩ => ⟨S_, .i32⟩
  | .hbm, ⟨26, _⟩ => ⟨S200000, .i32⟩
  | .hbm, ⟨27, _⟩ => ⟨S200000, .i1⟩
  | .hbm, ⟨28, _⟩ => ⟨S_, .i32⟩
  | .hbm, ⟨29, _⟩ => ⟨S200000, .i32⟩
  | .hbm, ⟨30, _⟩ => ⟨S200000, .i32⟩
  | .hbm, ⟨31, _⟩ => ⟨S200000, .i32⟩
  | .hbm, ⟨32, _⟩ => ⟨S_, .i32⟩
  | .hbm, ⟨33, _⟩ => ⟨S200000, .i32⟩
  | .hbm, ⟨34, _⟩ => ⟨S200000, .i1⟩
  | .hbm, ⟨35, _⟩ => ⟨S_, .i32⟩
  | .hbm, ⟨36, _⟩ => ⟨S200000, .i32⟩
  | .hbm, ⟨37, _⟩ => ⟨S200000, .i32⟩
  | .hbm, ⟨38, _⟩ => ⟨S200000, .i32⟩
  | .hbm, ⟨39, _⟩ => ⟨S200000x1, .i32⟩
  | .hbm, ⟨40, _⟩ => ⟨S200000x1, .i32⟩
  | .hbm, ⟨41, _⟩ => ⟨S200000x2, .i32⟩
  | .hbm, ⟨42, _⟩ => ⟨S200000, .f32⟩
  | .hbm, ⟨43, _⟩ => ⟨S_, .i32⟩
  | .hbm, ⟨44, _⟩ => ⟨S200000, .i32⟩
  | .hbm, ⟨45, _⟩ => ⟨S200000, .i1⟩
  | .hbm, ⟨46, _⟩ => ⟨S_, .i32⟩
  | .hbm, ⟨47, _⟩ => ⟨S200000, .i32⟩
  | .hbm, ⟨48, _⟩ => ⟨S200000, .i32⟩
  | .hbm, ⟨49, _⟩ => ⟨S200000, .i32⟩
  | .hbm, ⟨50, _⟩ => ⟨S_, .i32⟩
  | .hbm, ⟨51, _⟩ => ⟨S200000, .i32⟩
  | .hbm, ⟨52, _⟩ => ⟨S200000, .i1⟩
  | .hbm, ⟨53, _⟩ => ⟨S_, .i32⟩
  | .hbm, ⟨54, _⟩ => ⟨S200000, .i32⟩
  | .hbm, ⟨55, _⟩ => ⟨S200000, .i32⟩
  | .hbm, ⟨56, _⟩ => ⟨S200000, .i32⟩
  | .hbm, ⟨57, _⟩ => ⟨S200000x1, .i32⟩
  | .hbm, ⟨58, _⟩ => ⟨S200000x1, .i32⟩
  | .hbm, ⟨59, _⟩ => ⟨S200000x2, .i32⟩
  | .hbm, ⟨60, _⟩ => ⟨S200000, .f32⟩
  | .hbm, ⟨61, _⟩ => ⟨S200000, .f32⟩
  | .hbm, ⟨62, _⟩ => ⟨S_, .f32⟩
  | .hbm, ⟨63, _⟩ => ⟨S200000, .f32⟩
  | .hbm, ⟨64, _⟩ => ⟨S200000, .f32⟩
  | .hbm, ⟨65, _⟩ => ⟨S200000, .f32⟩
  | .hbm, ⟨66, _⟩ => ⟨S200000, .f32⟩
  | .hbm, ⟨67, _⟩ => ⟨S200000, .i1⟩
  | .hbm, ⟨68, _⟩ => ⟨S200000, .f32⟩
  | .hbm, ⟨69, _⟩ => ⟨S200000, .f32⟩
  | .hbm, ⟨70, _⟩ => ⟨S200000, .f32⟩
  | .hbm, ⟨71, _⟩ => ⟨S200000, .f32⟩
  | .hbm, ⟨72, _⟩ => ⟨S200000, .f32⟩
  | .hbm, ⟨73, _⟩ => ⟨S200000, .f32⟩
  | .hbm, ⟨74, _⟩ => ⟨S200000, .f32⟩
  | .hbm, ⟨75, _⟩ => ⟨S200000, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S1, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_c : Ref sig .tc := ⟨.hbm, 25, rfl⟩
abbrev main_v20 : Ref sig .tc := ⟨.hbm, 26, rfl⟩
abbrev main_v21 : Ref sig .tc := ⟨.hbm, 27, rfl⟩
abbrev main_c_2 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_c_3 : Ref sig .tc := ⟨.hbm, 32, rfl⟩
abbrev main_v25 : Ref sig .tc := ⟨.hbm, 33, rfl⟩
abbrev main_v26 : Ref sig .tc := ⟨.hbm, 34, rfl⟩
abbrev main_c_4 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_c_5 : Ref sig .tc := ⟨.hbm, 43, rfl⟩
abbrev main_v34 : Ref sig .tc := ⟨.hbm, 44, rfl⟩
abbrev main_v35 : Ref sig .tc := ⟨.hbm, 45, rfl⟩
abbrev main_c_6 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_c_7 : Ref sig .tc := ⟨.hbm, 50, rfl⟩
abbrev main_v39 : Ref sig .tc := ⟨.hbm, 51, rfl⟩
abbrev main_v40 : Ref sig .tc := ⟨.hbm, 52, rfl⟩
abbrev main_c_8 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_call0_cst : Ref sig .tc := ⟨.hbm, 62, rfl⟩
abbrev main_call0_v0 : Ref sig .tc := ⟨.hbm, 63, rfl⟩
abbrev main_call0_v1 : Ref sig .tc := ⟨.hbm, 64, rfl⟩
abbrev main_call0_v2 : Ref sig .tc := ⟨.hbm, 65, rfl⟩
abbrev main_call0_v3 : Ref sig .tc := ⟨.hbm, 66, rfl⟩
abbrev main_call0_v4 : Ref sig .tc := ⟨.hbm, 67, rfl⟩
abbrev main_call0_v5 : Ref sig .tc := ⟨.hbm, 68, rfl⟩
abbrev main_call0_v6 : Ref sig .tc := ⟨.hbm, 69, rfl⟩
abbrev main_call0_v7 : Ref sig .tc := ⟨.hbm, 70, rfl⟩
abbrev main_call0_v8 : Ref sig .tc := ⟨.hbm, 71, rfl⟩
abbrev main_call0_v9 : Ref sig .tc := ⟨.hbm, 72, rfl⟩
abbrev main_call0_v10 : Ref sig .tc := ⟨.hbm, 73, rfl⟩
abbrev main_call0_v11 : Ref sig .tc := ⟨.hbm, 74, rfl⟩
abbrev main_v49 : Ref sig .tc := ⟨.hbm, 75, rfl⟩
abbrev main_cst_9 : Ref sig .tc := ⟨.hbm, 76, rfl⟩
abbrev main_v50 : Ref sig .tc := ⟨.hbm, 77, rfl⟩
abbrev main_cst_10 : Ref sig .tc := ⟨.hbm, 78, rfl⟩
abbrev main_v51 : Ref sig .tc := ⟨.hbm, 79, rfl⟩
abbrev main_v52 : Ref sig .tc := ⟨.hbm, 80, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x512_S512x8192_1_0 : S8192x512.Transposes [1, 0] S512x8192
  bcast_S_S8192x8192 : S_.BroadcastsInDim S8192x8192 (![] : Fin 0 → Fin S8192x8192.rank)
  slices_S200000x3_S200000x1_0_0 : S200000x3.Slices ![0, 0] S200000x1
  shapeCasts_S200000x1_S200000 : S200000x1.ShapeCasts S200000
  slices_S200000x3_S200000x1_0_1 : S200000x3.Slices ![0, 1] S200000x1
  slices_S200000x3_S200000x1_0_2 : S200000x3.Slices ![0, 2] S200000x1
  bcast_S_S200000 : S_.BroadcastsInDim S200000 (![] : Fin 0 → Fin S200000.rank)
  bcast_S200000_S200000x1_0 : S200000.BroadcastsInDim S200000x1 (![0] : Fin 1 → Fin S200000x1.rank)
  concatenates_S200000x1_S200000x1_S200000x2_d1 : Shape.Concatenates [S200000x1, S200000x1] S200000x2 1
  reducesTo_S200000_S_d0 : S200000.ReducesTo [0] S_
  shapeCasts_S_S1 : S_.ShapeCasts S1
  dot_S8192x512_S512x8192_S8192x8192_1_0_0_1_n_n_wf : DotDims.WF S8192x512 S512x8192 S8192x8192 [1] [0] [0] [1] [] []
  gather_S8192x8192_S200000x2_S200000_n_01_n_n_01_1_11_wf : GatherDims.WF S8192x8192 S200000x2 S200000 [] [0, 1] [] [0, 1] [] 1 ![1, 1]

variable [Facts₀]

def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf
def gather_S8192x8192_S200000x2_S200000_n_01_n_n_01_1_11 : GatherDims S8192x8192 S200000x2 S200000 where
  offsetDims := []
  collapsedSliceDims := [0, 1]
  operandBatchingDims := []
  startIndicesBatchingDims := []
  startIndexMap := [0, 1]
  indexVectorDim := 1
  sliceSizes := ![1, 1]
  wf := gather_S8192x8192_S200000x2_S200000_n_01_n_n_01_1_11_wf

class Facts : Prop extends Facts₀ where

variable [Facts]
-- ==== Proof.TileBody.lean ====
/-
  One launch of the tile body of the pairwise-distance kernel, and the data the pipeline around it is proved with.

  The body loads its four input tiles (two row tiles of the points, a column of squared lengths, a row of squared
  lengths), computes the 1024 × 1024 tile of clamped distances from them, and stores it over the whole output tile.
  So after the body the output tile's buffer holds that one stored value, whatever it held before, and the input
  tiles' buffers are as they were.  The two row tiles are cut from ONE array (the points, once by the grid's first
  coordinate and once by its second): the pipeline holds that array by two half shares, one per window.
-/
import proofs.«162330_j15796889714897_1_alg».proof.Proof.Gen.KernelIdeal.Launch
import proofs.«162330_j15796889714897_1_alg».proof.Proof.Gen.KernelIdeal.Skeleton
import proofs.«162330_j15796889714897_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region is entered
variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## What the body leaves in the output tile's buffer -/

/-- The one rectangle the body stores through: the whole tile. -/
abbrev rOut : Rect S1024x1024 := Rect.unit (s := S1024x1024) ![0, 0] S1024x1024.size inb_S1024x1024_S1024x1024_0_0
abbrev rA : Rect S1024x512 := Rect.unit (s := S1024x512) ![0, 0] S1024x512.size inb_S1024x512_S1024x512_0_0
abbrev rC : Rect S1024x1 := Rect.unit (s := S1024x1) ![0, 0] S1024x1.size inb_S1024x1_S1024x1_0_0
abbrev rR : Rect S1x1024 := Rect.unit (s := S1x1024) ![0, 0] S1x1024.size inb_S1x1024_S1x1024_0_0

/-- The output tile after the body, from the four input tiles: its one store as a piece. -/
def outTile (x0 x1 : Vec F S1024x512 .bf16) (x2 : Vec F S1024x1 .f32) (x3 : Vec F S1x1024 .f32) : Vec F S1024x1024 .f32 :=
  View.canon [⟨rOut, k0_pay1 (View.ld x0 rA) (View.ld x1 rA) (View.ld x2 rC) (View.ld x3 rR)⟩]

/-- The store covers the tile. -/
theorem coverOut (p0 : Vec F S1024x1024 .f32) (y : S1024x1024.Idx) :
    ∃ pc ∈ ([⟨rOut, p0⟩] : List (View.Piece (Elt F) S1024x1024 .f32)), y ∈ pc.1.set :=
  View.cover_of_tiled [⟨rOut, p0⟩] S1024x1024.size (by rfl) y

/-! ## The body's triple -/

set_option maxHeartbeats 1000000 in
/-- The body on whole staging memrefs, the inputs' at read contents and the output's at anything, runs to the
    continuation holding the inputs' as they were and the output's at `outTile` of the inputs'. -/
theorem sound_kernel (c : Dev nD) (E : Set ℕ) (i : grid0.Coords)
    (arg2 : Memref sig .tc .vmem S1024x512 .bf16) (harg2 : arg2.IsWhole) (arg3 : Memref sig .tc .vmem S1024x512 .bf16) (harg3 : arg3.IsWhole)
    (arg4 : Memref sig .tc .vmem S1024x1 .f32) (harg4 : arg4.IsWhole) (arg5 : Memref sig .tc .vmem S1x1024 .f32) (harg5 : arg5.IsWhole)
    (arg6 : Memref sig .tc .vmem S1024x1024 .f32) (harg6 : arg6.IsWhole)
    (x0 x1 : Vec F S1024x512 .bf16) (x2 : Vec F S1024x1 .f32) (x3 : Vec F S1x1024 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (outTile x0 x1 x2 x3)) -∗ K ⟨⟩))
      ⊢ wp frame (wpE (defs₀ (F := F)) Variants.none c none) E (cc0__dist_kernel i arg2 harg2 arg3 harg3 arg4 harg4 arg5 harg5 arg6 harg6) K := by
  simp only [cc0__dist_kernel_eq_skeleton]; unfold cc0__dist_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (coverOut _)

/-! ## The pipeline's proof data -/

/-- The proof data on core `c`: the arrays as the region finds them; after the body at point `t` each input's
    buffer at its block and the output's at `outTile` of the input blocks; the invariant the scoped rest and the
    generator register, untouched; nothing owed; the points' array held by halves, one per row-tile window. -/
def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => outTile (iblk V c 0 t) (iblk V c 1 t) (iblk V c 2 t) (iblk V c 3 t)
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dat0 V c).A w = V c (Pipeline.arrRef spec0 w) := by
  dsimp only [dat0]

theorem after_0 (c : Dev nD) (t : Fin cfg0.N) : (dat0 V c).after 0 t = iblk V c 0 t := by dsimp only [dat0]
theorem after_1 (c : Dev nD) (t : Fin cfg0.N) : (dat0 V c).after 1 t = iblk V c 1 t := by dsimp only [dat0]
theorem after_2 (c : Dev nD) (t : Fin cfg0.N) : (dat0 V c).after 2 t = iblk V c 2 t := by dsimp only [dat0]
theorem after_3 (c : Dev nD) (t : Fin cfg0.N) : (dat0 V c).after 3 t = iblk V c 3 t := by dsimp only [dat0]
theorem after_4 (c : Dev nD) (t : Fin cfg0.N) :
    (dat0 V c).after 4 t = outTile (iblk V c 0 t) (iblk V c 1 t) (iblk V c 2 t) (iblk V c 3 t) := by dsimp only [dat0]

/-- Input window 0's current buffer holds its block at every point, fetched there or not: unfetched, the block index has
    not moved, and the body leaves the block in place. -/
theorem before_0 (c : Dev nD) (t : Fin cfg0.N) (d) : (dat0 V c).before 0 t d = iblk V c 0 t :=
  ((dat0 V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
/-- Input window 1's current buffer holds its block at every point, fetched there or not: unfetched, the block index has
    not moved, and the body leaves the block in place. -/
theorem before_1 (c : Dev nD) (t : Fin cfg0.N) (d) : (dat0 V c).before 1 t d = iblk V c 1 t :=
  ((dat0 V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
/-- Input window 2's current buffer holds its block at every point, fetched there or not: unfetched, the block index has
    not moved, and the body leaves the block in place. -/
theorem before_2 (c : Dev nD) (t : Fin cfg0.N) (d) : (dat0 V c).before 2 t d = iblk V c 2 t :=
  ((dat0 V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
/-- Input window 3's current buffer holds its block at every point, fetched there or not: unfetched, the block index has
    not moved, and the body leaves the block in place. -/
theorem before_3 (c : Dev nD) (t : Fin cfg0.N) (d) : (dat0 V c).before 3 t d = iblk V c 3 t :=
  ((dat0 V c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)

/-! ## The body obligation, at a generic point -/

def bodyPre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so the triple applies; the invariant and what the
    core owes pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3]
  rw [show (dat0 V c).Φ t.succ = (dat0 V c).Φ t.castSucc from rfl,
    show (dat0 V c).owesAt () t.succ = (dat0 V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation (c : Dev nD) : BodyObligation (dat0 (F := F) V c) (defs₀ (F := F)) Variants.none () Set.univ := fun t => by
  rw [bigSep_W0, bigSep_W0]
  exact sound_body V c t

end Cert.KernelIdeal.Hand

end
-- ==== Proof.Run.lean ====
/-
  The whole run of the pairwise-distance program: host operations, the tiled region, the finishing host operations.

  The thread state between segments is "every unscoped buffer of the core at a named valuation": a host stretch
  moves the valuation along by its operations, the region puts the table of distances where the pipeline's
  write-backs leave it and changes nothing else.  The points' array feeds two windows, so at the region's entry its
  full share is cut in two halves, one per window, and joined again at the exit.
-/
import proofs.«162330_j15796889714897_1_alg».proof.Proof.TileBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- At launch. -/
abbrev W0 : Dev nD → Valuation τ sig (Elt F) := fun c b => (s₀ m ρ).mem ((c : Dev nD), b)
/-- After the six host operations before the region. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the region's exit: the table's buffer at what the write-backs leave, every other buffer as entered. -/
def W2 (c : Dev nD) : Valuation τ sig (Elt F) :=
  Function.update (W1 m ρ c) (Proc.devRef .tc main_v5) ((dat0 (V1 m ρ) c).arrAt 4 cfg0.N)
abbrev V2 : (c : Dev nD) → (b : Ref sig .tc) → Buf (Elt F) ((c : Thread nD τ).loc b) := fun c b => W2 m ρ c b
/-- After the finishing stretches. -/
abbrev W3 : Dev nD → Valuation τ sig (Elt F) := fun c => StableHlo.after hostOps1 (W2 m ρ c)
abbrev W4 : Dev nD → Valuation τ sig (Elt F) := fun c => StableHlo.after hostOps1_1 (W3 m ρ c)
abbrev W5 : Dev nD → Valuation τ sig (Elt F) := fun c => StableHlo.after hostOps1_2 (W4 m ρ c)

theorem W2_out (c : Dev nD) : W2 m ρ c (Proc.devRef .tc main_v5) = (dat0 (V1 m ρ) c).arrAt 4 cfg0.N := by
  unfold W2; exact Function.update_self ..
theorem W2_of_ne (c : Dev nD) (b : Ref sig .tc) (hb : b ≠ main_v5) :
    W2 m ρ c (Proc.devRef .tc b) = W1 m ρ c (Proc.devRef .tc b) := by
  unfold W2; exact Function.update_of_ne (fun e => hb (Proc.devRef_injective _ e)) ..

/-! ## The points' array, one buffer behind two windows -/

section Shares
variable (V : (c : Dev nD) → (b : Ref sig .tc) → Buf (Elt F) ((c : Thread nD τ).loc b))

/-- The pipeline's arrays, window by window, each whole at its share. -/
theorem arrays_eq' (c : Dev nD) (G : (w : Fin cfg0.W) → Buf (Elt F) ((cfg0.win w).arr.view.loc (c.tc : Thread nD τ))) :
    (dat0 V c).arrays G = bigSep Finset.univ fun w : Fin cfg0.W =>
      ((((c.tc : Thread nD τ)).loc (Pipeline.arrRef spec0 w)) ↦{(dat0 V c).share w} G w : sProp 𝕄) := by
  unfold Dat.arrays
  exact bigSep_congr fun w _ => by rw [(arr_whole0 w).set_eq_univ]

theorem share_0 (c : Dev nD) : (dat0 V c).share 0 = fullShare.left := rfl
theorem share_1 (c : Dev nD) : (dat0 V c).share 1 = fullShare.right := rfl
theorem share_2 (c : Dev nD) : (dat0 V c).share 2 = fullShare := rfl
theorem share_3 (c : Dev nD) : (dat0 V c).share 3 = fullShare := rfl
theorem share_4 (c : Dev nD) : (dat0 V c).share 4 = fullShare := rfl

/-- The four distinct buffers behind the five windows. -/
theorem arrBufs_eq (c : Dev nD) (Vc : (b : Ref sig .tc) → Buf (Elt F) ((c.tc : Thread nD τ).loc b)) :
    (Pipeline.arrBufs spec0 c Vc : sProp 𝕄)
      = iprop(((((c.tc : Thread nD τ)).loc main_v0) ↦{fullShare} Vc main_v0) ∗ ((((c.tc : Thread nD τ)).loc main_v3) ↦{fullShare} Vc main_v3)
          ∗ ((((c.tc : Thread nD τ)).loc main_v4) ↦{fullShare} Vc main_v4) ∗ ((((c.tc : Thread nD τ)).loc main_v5) ↦{fullShare} Vc main_v5)) := by
  unfold Pipeline.arrBufs
  exact bigSep_eq_bigSepL_of_eq [main_v0, main_v3, main_v4, main_v5] (by decide) (by decide) _

/-- ENTRY: the buffers behind the arrays, whole at contents `Vc`, are the pipeline's arrays at any contents that agree
    with `Vc` window by window — the points' full share cut in its two halves. -/
theorem arrays_of_arrBufs (c : Dev nD) (Vc : (b : Ref sig .tc) → Buf (Elt F) ((c.tc : Thread nD τ).loc b))
    (G : (w : Fin cfg0.W) → Buf (Elt F) ((cfg0.win w).arr.view.loc (c.tc : Thread nD τ)))
    (hG : ∀ w, G w = Vc (Pipeline.arrRef spec0 w)) :
    (Pipeline.arrBufs spec0 c Vc : sProp 𝕄) ⊢ (dat0 V c).arrays G := by
  rw [arrays_eq', bigSep_W0, arrBufs_eq, share_0, share_1, share_2, share_3, share_4, hG 0, hG 1, hG 2, hG 3, hG 4]
  iintro ⟨H0, H3, H4, H5⟩
  ihave H := (pointsTo_share (PosShare.mem_left_op_right fullShare)).1 $$ H0
  icases H with ⟨HL, HR⟩
  isplitl [HL]; · iexact HL
  isplitl [HR]; · iexact HR
  isplitl [H3]; · iexact H3
  isplitl [H4]; · iexact H4
  iexact H5

/-- EXIT: the reverse — the two halves joined. -/
theorem arrBufs_of_arrays (c : Dev nD) (Vc : (b : Ref sig .tc) → Buf (Elt F) ((c.tc : Thread nD τ).loc b))
    (G : (w : Fin cfg0.W) → Buf (Elt F) ((cfg0.win w).arr.view.loc (c.tc : Thread nD τ)))
    (hG : ∀ w, G w = Vc (Pipeline.arrRef spec0 w)) :
    (dat0 V c).arrays G ⊢ (Pipeline.arrBufs spec0 c Vc : sProp 𝕄) := by
  rw [arrays_eq', bigSep_W0, arrBufs_eq, share_0, share_1, share_2, share_3, share_4, hG 0, hG 1, hG 2, hG 3, hG 4]
  iintro ⟨HL, HR, H3, H4, H5⟩
  isplitl [HL HR]
  · iapply (pointsTo_share (PosShare.mem_left_op_right fullShare)).2
    isplitl [HL]; · iexact HL
    iexact HR
  isplitl [H3]; · iexact H3
  isplitl [H4]; · iexact H4
  iexact H5

end Shares

/-! ## The proof data family and the thread state -/

/-- No pipeline has a prefetched table. -/
abbrev adm : (p : Fin 1) → (pcfgs (F := F) p).Adm := fun p => (cfgs p).toPCfg_adm
/-- The one pipeline's proof data, at the region's entry contents. -/
def pdats : (p : Fin 1) → (c : Dev nD) → Dat τ (Elt F) Unit ℕ (UR sig nD τ) ℕ (Pipeline.pin (pcfgs (F := F)) adm p) c
  | ⟨0, _⟩ => fun c => dat0 (V1 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over every unscoped buffer. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without what the core owes: every unscoped buffer at the last valuation. -/
abbrev Tₙ (c : Dev nD) : sProp 𝕄 := iprop(StableHlo.held (c : Thread nD τ) (Pipeline.ucRefs τ sig) (W5 m ρ c) ∗ ∃ r, prngReg c r)

/-- At the exit every window's array holds what the exit valuation says. -/
theorem hF (c : Dev nD) (w : Fin cfg0.W) : (dat0 (V1 m ρ) c).arrAt w cfg0.N = V2 m ρ c (Pipeline.arrRef spec0 w) := by
  match w with
  | ⟨0, _⟩ => exact ((dat0 (V1 m ρ) c).arrAt_in 0 rfl _).trans ((A_eq (V1 m ρ) c 0).trans (W2_of_ne m ρ c main_v0 (by decide)).symm)
  | ⟨1, _⟩ => exact ((dat0 (V1 m ρ) c).arrAt_in 1 rfl _).trans ((A_eq (V1 m ρ) c 1).trans (W2_of_ne m ρ c main_v0 (by decide)).symm)
  | ⟨2, _⟩ => exact ((dat0 (V1 m ρ) c).arrAt_in 2 rfl _).trans ((A_eq (V1 m ρ) c 2).trans (W2_of_ne m ρ c main_v3 (by decide)).symm)
  | ⟨3, _⟩ => exact ((dat0 (V1 m ρ) c).arrAt_in 3 rfl _).trans ((A_eq (V1 m ρ) c 3).trans (W2_of_ne m ρ c main_v4 (by decide)).symm)
  | ⟨4, _⟩ => exact (W2_out m ρ c).symm
/-- Off the arrays the region changes nothing. -/
theorem hrest (c : Dev nD) : ∀ b, b ∉ Finset.univ.image (Pipeline.arrRef spec0) → V2 m ρ c b = V1 m ρ c b :=
  fun b hb => W2_of_ne m ρ c b fun e => hb (Finset.mem_image.mpr ⟨4, Finset.mem_univ _, e.symm⟩)

/-! ## The region as a segment -/

set_option backward.isDefEq.respectTransparency.types false in
/-- The tiled region over the thread state: entered from every unscoped buffer at `W1`, left at `W2`. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit : (unscopedBufs c (V1 m ρ c) : sProp 𝕄)
        ⊢ iprop((pdats m ρ 0 c).arrays ((pdats m ρ 0 c).arrAt · 0) ∗ Pipeline.unscopedRest spec0 c (V1 m ρ c)) := by
      rw [Pipeline.unscopedBufs_split₀ cfgs 0 winFacts₀0.arr_unscoped c (V1 m ρ c)]
      exact sep_mono (arrays_of_arrBufs (V1 m ρ) c (V1 m ρ c) _ (fun w => A_eq (V1 m ρ) c w)) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m ρ 0 c).arrays ((pdats m ρ 0 c).arrAt · cfg0.N) ∗ Pipeline.unscopedRest spec0 c (V1 m ρ c))
        ⊢ (unscopedBufs c (V2 m ρ c) : sProp 𝕄) := by
      rw [Pipeline.unscopedBufs_split₀ cfgs 0 winFacts₀0.arr_unscoped c (V2 m ρ c)]
      refine sep_mono (arrBufs_of_arrays (V1 m ρ) c (V2 m ρ c) _ (hF m ρ c)) (Entails.of_eq ?_)
      unfold Pipeline.unscopedRest
      exact bigSep_congr fun b hb => by rw [hrest m ρ c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)) ]

theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and every final state holds each unscoped buffer of each core at the last valuation `W5`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c =>
      (show iprop(StableHlo.held (c : Thread nD τ) (Pipeline.ucRefs τ sig) (W5 m ρ c) ∗ R c)
          ⊢ iprop(Tₙ m ρ c ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

end Cert.KernelIdeal.Hand

end
-- ==== Proof.Kept.lean ====
/-
  The two argument arrays are never written: no host operation names one as its result, and the region reads the
  points only through input windows and does not touch the triplets.  So at the end each holds what it held at launch.
-/
import proofs.«162330_j15796889714897_1_alg».proof.Proof.Run

set_option maxRecDepth 16384

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

variable (m : (ℓ : Loc nD τ sig) → Buf (Elt F) ℓ) (ρ : Dev nD → PrngReg)

/-- A buffer no operation of a stretch writes holds after the stretch what it held before. -/
theorem after_kept (ops : List (HloOp τ sig (Elt F))) (W : Valuation τ sig (Elt F)) (b : Ref sig .tc)
    (h : ops.Forall fun op => Proc.devRef .tc b ∉ op.writes) :
    StableHlo.after ops W (Proc.devRef .tc b) = W (Proc.devRef .tc b) :=
  StableHlo.after_of_forall_not_mem (b := Proc.devRef .tc b) _ _ (List.forall_iff_forall_mem.mp h)

theorem hostOps0_main_arg0 : (hostOps0 : List (HloOp τ sig (Elt F))).Forall fun op => Proc.devRef .tc main_arg0 ∉ op.writes := by
  simp only [hostOps0, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps0_main_arg1 : (hostOps0 : List (HloOp τ sig (Elt F))).Forall fun op => Proc.devRef .tc main_arg1 ∉ op.writes := by
  simp only [hostOps0, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_main_arg0 : (hostOps1 : List (HloOp τ sig (Elt F))).Forall fun op => Proc.devRef .tc main_arg0 ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_main_arg1 : (hostOps1 : List (HloOp τ sig (Elt F))).Forall fun op => Proc.devRef .tc main_arg1 ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_1_main_arg0 : (hostOps1_1 : List (HloOp τ sig (Elt F))).Forall fun op => Proc.devRef .tc main_arg0 ∉ op.writes := by
  simp only [hostOps1_1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_1_main_arg1 : (hostOps1_1 : List (HloOp τ sig (Elt F))).Forall fun op => Proc.devRef .tc main_arg1 ∉ op.writes := by
  simp only [hostOps1_1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_2_main_arg0 : (hostOps1_2 : List (HloOp τ sig (Elt F))).Forall fun op => Proc.devRef .tc main_arg0 ∉ op.writes := by
  simp only [hostOps1_2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_2_main_arg1 : (hostOps1_2 : List (HloOp τ sig (Elt F))).Forall fun op => Proc.devRef .tc main_arg1 ∉ op.writes := by
  simp only [hostOps1_2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

theorem hostOps0_main_v5 : (hostOps0 : List (HloOp τ sig (Elt F))).Forall fun op => Proc.devRef .tc main_v5 ∉ op.writes := by
  simp only [hostOps0, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

/-- The points end as launched. -/
theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := after_kept _ _ _ hostOps1_2_main_arg0
    _ = W3 m ρ c (Proc.devRef .tc main_arg0) := after_kept _ _ _ hostOps1_1_main_arg0
    _ = W2 m ρ c (Proc.devRef .tc main_arg0) := after_kept _ _ _ hostOps1_main_arg0
    _ = W1 m ρ c (Proc.devRef .tc main_arg0) := W2_of_ne m ρ c main_arg0 (by decide)
    _ = W0 m ρ c (Proc.devRef .tc main_arg0) := after_kept _ _ _ hostOps0_main_arg0
    _ = m ((c : Thread nD τ).loc main_arg0) := rfl

/-- The triplets end as launched. -/
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := after_kept _ _ _ hostOps1_2_main_arg1
    _ = W3 m ρ c (Proc.devRef .tc main_arg1) := after_kept _ _ _ hostOps1_1_main_arg1
    _ = W2 m ρ c (Proc.devRef .tc main_arg1) := after_kept _ _ _ hostOps1_main_arg1
    _ = W1 m ρ c (Proc.devRef .tc main_arg1) := W2_of_ne m ρ c main_arg1 (by decide)
    _ = W0 m ρ c (Proc.devRef .tc main_arg1) := after_kept _ _ _ hostOps0_main_arg1
    _ = m ((c : Thread nD τ).loc main_arg1) := rfl

/-- At the region's exit the triplets are as launched. -/
theorem W2_main_arg1 (c : Dev nD) : W2 m ρ c (Proc.devRef .tc main_arg1) = m ((c : Thread nD τ).loc main_arg1) :=
  (W2_of_ne m ρ c main_arg1 (by decide)).trans (after_kept _ _ _ hostOps0_main_arg1)

/-- THE FRAME: the program runs to the end, nothing faulting, and its two argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
      ⟨(h c _ (mem_uc main_arg0 (by decide))).trans (W5_main_arg0 m ρ c),
       (h c _ (mem_uc main_arg1 (by decide))).trans (W5_main_arg1 m ρ c)⟩)
    (run_main m ρ)

end Cert.KernelIdeal.Hand

end
-- ==== Proof.KTileBody.lean ====
/-
  One launch of the tile body of the pairwise-distance kernel, and the data the pipeline around it is proved with.

  The body loads its four input tiles (two row tiles of the points, a column of squared lengths, a row of squared
  lengths), computes the 1024 × 1024 tile of clamped distances from them, and stores it over the whole output tile.
  So after the body the output tile's buffer holds that one stored value, whatever it held before, and the input
  tiles' buffers are as they were.  The two row tiles are cut from ONE array (the points, once by the grid's first
  coordinate and once by its second): the pipeline holds that array by two half shares, one per window.
-/
import proofs.«162330_j15796889714897_1_alg».proof.Proof.Gen.Kernel.Launch
import proofs.«162330_j15796889714897_1_alg».proof.Proof.Gen.Kernel.Skeleton
import proofs.«162330_j15796889714897_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region is entered
variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## What the body leaves in the output tile's buffer -/

/-- The one rectangle the body stores through: the whole tile. -/
abbrev rOut : Rect S1024x1024 := Rect.unit (s := S1024x1024) ![0, 0] S1024x1024.size inb_S1024x1024_S1024x1024_0_0
abbrev rA : Rect S1024x512 := Rect.unit (s := S1024x512) ![0, 0] S1024x512.size inb_S1024x512_S1024x512_0_0
abbrev rC : Rect S1024x1 := Rect.unit (s := S1024x1) ![0, 0] S1024x1.size inb_S1024x1_S1024x1_0_0
abbrev rR : Rect S1x1024 := Rect.unit (s := S1x1024) ![0, 0] S1x1024.size inb_S1x1024_S1x1024_0_0

/-- The output tile after the body, from the four input tiles: its one store as a piece. -/
def outTile (x0 x1 : Vec F S1024x512 .bf16) (x2 : Vec F S1024x1 .f32) (x3 : Vec F S1x1024 .f32) : Vec F S1024x1024 .f32 :=
  View.canon [⟨rOut, k0_pay1 (View.ld x0 rA) (View.ld x1 rA) (View.ld x2 rC) (View.ld x3 rR)⟩]

/-- The store covers the tile. -/
theorem coverOut (p0 : Vec F S1024x1024 .f32) (y : S1024x1024.Idx) :
    ∃ pc ∈ ([⟨rOut, p0⟩] : List (View.Piece (Elt F) S1024x1024 .f32)), y ∈ pc.1.set :=
  View.cover_of_tiled [⟨rOut, p0⟩] S1024x1024.size (by rfl) y

/-! ## The body's triple -/

set_option maxHeartbeats 1000000 in
/-- The body on whole staging memrefs, the inputs' at read contents and the output's at anything, runs to the
    continuation holding the inputs' as they were and the output's at `outTile` of the inputs'. -/
theorem sound_kernel (c : Dev nD) (E : Set ℕ) (i : grid0.Coords)
    (arg2 : Memref sig .tc .vmem S1024x512 .bf16) (harg2 : arg2.IsWhole) (arg3 : Memref sig .tc .vmem S1024x512 .bf16) (harg3 : arg3.IsWhole)
    (arg4 : Memref sig .tc .vmem S1024x1 .f32) (harg4 : arg4.IsWhole) (arg5 : Memref sig .tc .vmem S1x1024 .f32) (harg5 : arg5.IsWhole)
    (arg6 : Memref sig .tc .vmem S1024x1024 .f32) (harg6 : arg6.IsWhole)
    (x0 x1 : Vec F S1024x512 .bf16) (x2 : Vec F S1024x1 .f32) (x3 : Vec F S1x1024 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (outTile x0 x1 x2 x3)) -∗ K ⟨⟩))
      ⊢ wp frame (wpE (defs₀ (F := F)) Variants.none c none) E (cc0__dist_kernel i arg2 harg2 arg3 harg3 arg4 harg4 arg5 harg5 arg6 harg6) K := by
  simp only [cc0__dist_kernel_eq_skeleton]; unfold cc0__dist_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (coverOut _)

/-! ## The pipeline's proof data -/

/-- The proof data on core `c`: the arrays as the region finds them; after the body at point `t` each input's
    buffer at its block and the output's at `outTile` of the input blocks; the invariant the scoped rest and the
    generator register, untouched; nothing owed; the points' array held by halves, one per row-tile window. -/
def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => outTile (iblk V c 0 t) (iblk V c 1 t) (iblk V c 2 t) (iblk V c 3 t)
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dat0 V c).A w = V c (Pipeline.arrRef spec0 w) := by
  dsimp only [dat0]

theorem after_0 (c : Dev nD) (t : Fin cfg0.N) : (dat0 V c).after 0 t = iblk V c 0 t := by dsimp only [dat0]
theorem after_1 (c : Dev nD) (t : Fin cfg0.N) : (dat0 V c).after 1 t = iblk V c 1 t := by dsimp only [dat0]
theorem after_2 (c : Dev nD) (t : Fin cfg0.N) : (dat0 V c).after 2 t = iblk V c 2 t := by dsimp only [dat0]
theorem after_3 (c : Dev nD) (t : Fin cfg0.N) : (dat0 V c).after 3 t = iblk V c 3 t := by dsimp only [dat0]
theorem after_4 (c : Dev nD) (t : Fin cfg0.N) :
    (dat0 V c).after 4 t = outTile (iblk V c 0 t) (iblk V c 1 t) (iblk V c 2 t) (iblk V c 3 t) := by dsimp only [dat0]

/-- Input window 0's current buffer holds its block at every point, fetched there or not: unfetched, the block index has
    not moved, and the body leaves the block in place. -/
theorem before_0 (c : Dev nD) (t : Fin cfg0.N) (d) : (dat0 V c).before 0 t d = iblk V c 0 t :=
  ((dat0 V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
/-- Input window 1's current buffer holds its block at every point, fetched there or not: unfetched, the block index has
    not moved, and the body leaves the block in place. -/
theorem before_1 (c : Dev nD) (t : Fin cfg0.N) (d) : (dat0 V c).before 1 t d = iblk V c 1 t :=
  ((dat0 V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
/-- Input window 2's current buffer holds its block at every point, fetched there or not: unfetched, the block index has
    not moved, and the body leaves the block in place. -/
theorem before_2 (c : Dev nD) (t : Fin cfg0.N) (d) : (dat0 V c).before 2 t d = iblk V c 2 t :=
  ((dat0 V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
/-- Input window 3's current buffer holds its block at every point, fetched there or not: unfetched, the block index has
    not moved, and the body leaves the block in place. -/
theorem before_3 (c : Dev nD) (t : Fin cfg0.N) (d) : (dat0 V c).before 3 t d = iblk V c 3 t :=
  ((dat0 V c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)

/-! ## The body obligation, at a generic point -/

def bodyPre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so the triple applies; the invariant and what the
    core owes pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3]
  rw [show (dat0 V c).Φ t.succ = (dat0 V c).Φ t.castSucc from rfl,
    show (dat0 V c).owesAt () t.succ = (dat0 V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation (c : Dev nD) : BodyObligation (dat0 (F := F) V c) (defs₀ (F := F)) Variants.none () Set.univ := fun t => by
  rw [bigSep_W0, bigSep_W0]
  exact sound_body V c t

end Cert.Kernel.Hand

end
-- ==== Proof.KRun.lean ====
/-
  The whole run of the pairwise-distance program: host operations, the tiled region, the finishing host operations.

  The thread state between segments is "every unscoped buffer of the core at a named valuation": a host stretch
  moves the valuation along by its operations, the region puts the table of distances where the pipeline's
  write-backs leave it and changes nothing else.  The points' array feeds two windows, so at the region's entry its
  full share is cut in two halves, one per window, and joined again at the exit.
-/
import proofs.«162330_j15796889714897_1_alg».proof.Proof.KTileBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- At launch. -/
abbrev W0 : Dev nD → Valuation τ sig (Elt F) := fun c b => (s₀ m ρ).mem ((c : Dev nD), b)
/-- After the six host operations before the region. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the region's exit: the table's buffer at what the write-backs leave, every other buffer as entered. -/
def W2 (c : Dev nD) : Valuation τ sig (Elt F) :=
  Function.update (W1 m ρ c) (Proc.devRef .tc main_v5) ((dat0 (V1 m ρ) c).arrAt 4 cfg0.N)
abbrev V2 : (c : Dev nD) → (b : Ref sig .tc) → Buf (Elt F) ((c : Thread nD τ).loc b) := fun c b => W2 m ρ c b
/-- After the finishing stretches. -/
abbrev W3 : Dev nD → Valuation τ sig (Elt F) := fun c => StableHlo.after hostOps1 (W2 m ρ c)
abbrev W4 : Dev nD → Valuation τ sig (Elt F) := fun c => StableHlo.after hostOps1_1 (W3 m ρ c)
abbrev W5 : Dev nD → Valuation τ sig (Elt F) := fun c => StableHlo.after hostOps1_2 (W4 m ρ c)

theorem W2_out (c : Dev nD) : W2 m ρ c (Proc.devRef .tc main_v5) = (dat0 (V1 m ρ) c).arrAt 4 cfg0.N := by
  unfold W2; exact Function.update_self ..
theorem W2_of_ne (c : Dev nD) (b : Ref sig .tc) (hb : b ≠ main_v5) :
    W2 m ρ c (Proc.devRef .tc b) = W1 m ρ c (Proc.devRef .tc b) := by
  unfold W2; exact Function.update_of_ne (fun e => hb (Proc.devRef_injective _ e)) ..

/-! ## The points' array, one buffer behind two windows -/

section Shares
variable (V : (c : Dev nD) → (b : Ref sig .tc) → Buf (Elt F) ((c : Thread nD τ).loc b))

/-- The pipeline's arrays, window by window, each whole at its share. -/
theorem arrays_eq' (c : Dev nD) (G : (w : Fin cfg0.W) → Buf (Elt F) ((cfg0.win w).arr.view.loc (c.tc : Thread nD τ))) :
    (dat0 V c).arrays G = bigSep Finset.univ fun w : Fin cfg0.W =>
      ((((c.tc : Thread nD τ)).loc (Pipeline.arrRef spec0 w)) ↦{(dat0 V c).share w} G w : sProp 𝕄) := by
  unfold Dat.arrays
  exact bigSep_congr fun w _ => by rw [(arr_whole0 w).set_eq_univ]

theorem share_0 (c : Dev nD) : (dat0 V c).share 0 = fullShare.left := rfl
theorem share_1 (c : Dev nD) : (dat0 V c).share 1 = fullShare.right := rfl
theorem share_2 (c : Dev nD) : (dat0 V c).share 2 = fullShare := rfl
theorem share_3 (c : Dev nD) : (dat0 V c).share 3 = fullShare := rfl
theorem share_4 (c : Dev nD) : (dat0 V c).share 4 = fullShare := rfl

/-- The four distinct buffers behind the five windows. -/
theorem arrBufs_eq (c : Dev nD) (Vc : (b : Ref sig .tc) → Buf (Elt F) ((c.tc : Thread nD τ).loc b)) :
    (Pipeline.arrBufs spec0 c Vc : sProp 𝕄)
      = iprop(((((c.tc : Thread nD τ)).loc main_v0) ↦{fullShare} Vc main_v0) ∗ ((((c.tc : Thread nD τ)).loc main_v3) ↦{fullShare} Vc main_v3)
          ∗ ((((c.tc : Thread nD τ)).loc main_v4) ↦{fullShare} Vc main_v4) ∗ ((((c.tc : Thread nD τ)).loc main_v5) ↦{fullShare} Vc main_v5)) := by
  unfold Pipeline.arrBufs
  exact bigSep_eq_bigSepL_of_eq [main_v0, main_v3, main_v4, main_v5] (by decide) (by decide) _

/-- ENTRY: the buffers behind the arrays, whole at contents `Vc`, are the pipeline's arrays at any contents that agree
    with `Vc` window by window — the points' full share cut in its two halves. -/
theorem arrays_of_arrBufs (c : Dev nD) (Vc : (b : Ref sig .tc) → Buf (Elt F) ((c.tc : Thread nD τ).loc b))
    (G : (w : Fin cfg0.W) → Buf (Elt F) ((cfg0.win w).arr.view.loc (c.tc : Thread nD τ)))
    (hG : ∀ w, G w = Vc (Pipeline.arrRef spec0 w)) :
    (Pipeline.arrBufs spec0 c Vc : sProp 𝕄) ⊢ (dat0 V c).arrays G := by
  rw [arrays_eq', bigSep_W0, arrBufs_eq, share_0, share_1, share_2, share_3, share_4, hG 0, hG 1, hG 2, hG 3, hG 4]
  iintro ⟨H0, H3, H4, H5⟩
  ihave H := (pointsTo_share (PosShare.mem_left_op_right fullShare)).1 $$ H0
  icases H with ⟨HL, HR⟩
  isplitl [HL]; · iexact HL
  isplitl [HR]; · iexact HR
  isplitl [H3]; · iexact H3
  isplitl [H4]; · iexact H4
  iexact H5

/-- EXIT: the reverse — the two halves joined. -/
theorem arrBufs_of_arrays (c : Dev nD) (Vc : (b : Ref sig .tc) → Buf (Elt F) ((c.tc : Thread nD τ).loc b))
    (G : (w : Fin cfg0.W) → Buf (Elt F) ((cfg0.win w).arr.view.loc (c.tc : Thread nD τ)))
    (hG : ∀ w, G w = Vc (Pipeline.arrRef spec0 w)) :
    (dat0 V c).arrays G ⊢ (Pipeline.arrBufs spec0 c Vc : sProp 𝕄) := by
  rw [arrays_eq', bigSep_W0, arrBufs_eq, share_0, share_1, share_2, share_3, share_4, hG 0, hG 1, hG 2, hG 3, hG 4]
  iintro ⟨HL, HR, H3, H4, H5⟩
  isplitl [HL HR]
  · iapply (pointsTo_share (PosShare.mem_left_op_right fullShare)).2
    isplitl [HL]; · iexact HL
    iexact HR
  isplitl [H3]; · iexact H3
  isplitl [H4]; · iexact H4
  iexact H5

end Shares

/-! ## The proof data family and the thread state -/

/-- No pipeline has a prefetched table. -/
abbrev adm : (p : Fin 1) → (pcfgs (F := F) p).Adm := fun p => (cfgs p).toPCfg_adm
/-- The one pipeline's proof data, at the region's entry contents. -/
def pdats : (p : Fin 1) → (c : Dev nD) → Dat τ (Elt F) Unit ℕ (UR sig nD τ) ℕ (Pipeline.pin (pcfgs (F := F)) adm p) c
  | ⟨0, _⟩ => fun c => dat0 (V1 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over every unscoped buffer. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without what the core owes: every unscoped buffer at the last valuation. -/
abbrev Tₙ (c : Dev nD) : sProp 𝕄 := iprop(StableHlo.held (c : Thread nD τ) (Pipeline.ucRefs τ sig) (W5 m ρ c) ∗ ∃ r, prngReg c r)

/-- At the exit every window's array holds what the exit valuation says. -/
theorem hF (c : Dev nD) (w : Fin cfg0.W) : (dat0 (V1 m ρ) c).arrAt w cfg0.N = V2 m ρ c (Pipeline.arrRef spec0 w) := by
  match w with
  | ⟨0, _⟩ => exact ((dat0 (V1 m ρ) c).arrAt_in 0 rfl _).trans ((A_eq (V1 m ρ) c 0).trans (W2_of_ne m ρ c main_v0 (by decide)).symm)
  | ⟨1, _⟩ => exact ((dat0 (V1 m ρ) c).arrAt_in 1 rfl _).trans ((A_eq (V1 m ρ) c 1).trans (W2_of_ne m ρ c main_v0 (by decide)).symm)
  | ⟨2, _⟩ => exact ((dat0 (V1 m ρ) c).arrAt_in 2 rfl _).trans ((A_eq (V1 m ρ) c 2).trans (W2_of_ne m ρ c main_v3 (by decide)).symm)
  | ⟨3, _⟩ => exact ((dat0 (V1 m ρ) c).arrAt_in 3 rfl _).trans ((A_eq (V1 m ρ) c 3).trans (W2_of_ne m ρ c main_v4 (by decide)).symm)
  | ⟨4, _⟩ => exact (W2_out m ρ c).symm
/-- Off the arrays the region changes nothing. -/
theorem hrest (c : Dev nD) : ∀ b, b ∉ Finset.univ.image (Pipeline.arrRef spec0) → V2 m ρ c b = V1 m ρ c b :=
  fun b hb => W2_of_ne m ρ c b fun e => hb (Finset.mem_image.mpr ⟨4, Finset.mem_univ _, e.symm⟩)

/-! ## The region as a segment -/

set_option backward.isDefEq.respectTransparency.types false in
/-- The tiled region over the thread state: entered from every unscoped buffer at `W1`, left at `W2`. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit : (unscopedBufs c (V1 m ρ c) : sProp 𝕄)
        ⊢ iprop((pdats m ρ 0 c).arrays ((pdats m ρ 0 c).arrAt · 0) ∗ Pipeline.unscopedRest spec0 c (V1 m ρ c)) := by
      rw [Pipeline.unscopedBufs_split₀ cfgs 0 winFacts₀0.arr_unscoped c (V1 m ρ c)]
      exact sep_mono (arrays_of_arrBufs (V1 m ρ) c (V1 m ρ c) _ (fun w => A_eq (V1 m ρ) c w)) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m ρ 0 c).arrays ((pdats m ρ 0 c).arrAt · cfg0.N) ∗ Pipeline.unscopedRest spec0 c (V1 m ρ c))
        ⊢ (unscopedBufs c (V2 m ρ c) : sProp 𝕄) := by
      rw [Pipeline.unscopedBufs_split₀ cfgs 0 winFacts₀0.arr_unscoped c (V2 m ρ c)]
      refine sep_mono (arrBufs_of_arrays (V1 m ρ) c (V2 m ρ c) _ (hF m ρ c)) (Entails.of_eq ?_)
      unfold Pipeline.unscopedRest
      exact bigSep_congr fun b hb => by rw [hrest m ρ c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)) ]

theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and every final state holds each unscoped buffer of each core at the last valuation `W5`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c =>
      (show iprop(StableHlo.held (c : Thread nD τ) (Pipeline.ucRefs τ sig) (W5 m ρ c) ∗ R c)
          ⊢ iprop(Tₙ m ρ c ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

end Cert.Kernel.Hand

end
-- ==== Proof.KKept.lean ====
/-
  The two argument arrays are never written: no host operation names one as its result, and the region reads the
  points only through input windows and does not touch the triplets.  So at the end each holds what it held at launch.
-/
import proofs.«162330_j15796889714897_1_alg».proof.Proof.KRun

set_option maxRecDepth 16384

noncomputable section

namespace Cert.Kernel.Hand

open Cert.Kernel Cert.Kernel.Gen
open Idealize.ShloMosaic Idealize.ShloMosaic.TcCoe
open Idealize.SL Idealize.SL.Sem

variable {F : FTy → Type} [FloatOps F]

variable (m : (ℓ : Loc nD τ sig) → Buf (Elt F) ℓ) (ρ : Dev nD → PrngReg)

/-- A buffer no operation of a stretch writes holds after the stretch what it held before. -/
theorem after_kept (ops : List (HloOp τ sig (Elt F))) (W : Valuation τ sig (Elt F)) (b : Ref sig .tc)
    (h : ops.Forall fun op => Proc.devRef .tc b ∉ op.writes) :
    StableHlo.after ops W (Proc.devRef .tc b) = W (Proc.devRef .tc b) :=
  StableHlo.after_of_forall_not_mem (b := Proc.devRef .tc b) _ _ (List.forall_iff_forall_mem.mp h)

theorem hostOps0_main_arg0 : (hostOps0 : List (HloOp τ sig (Elt F))).Forall fun op => Proc.devRef .tc main_arg0 ∉ op.writes := by
  simp only [hostOps0, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps0_main_arg1 : (hostOps0 : List (HloOp τ sig (Elt F))).Forall fun op => Proc.devRef .tc main_arg1 ∉ op.writes := by
  simp only [hostOps0, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_main_arg0 : (hostOps1 : List (HloOp τ sig (Elt F))).Forall fun op => Proc.devRef .tc main_arg0 ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_main_arg1 : (hostOps1 : List (HloOp τ sig (Elt F))).Forall fun op => Proc.devRef .tc main_arg1 ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_1_main_arg0 : (hostOps1_1 : List (HloOp τ sig (Elt F))).Forall fun op => Proc.devRef .tc main_arg0 ∉ op.writes := by
  simp only [hostOps1_1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_1_main_arg1 : (hostOps1_1 : List (HloOp τ sig (Elt F))).Forall fun op => Proc.devRef .tc main_arg1 ∉ op.writes := by
  simp only [hostOps1_1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_2_main_arg0 : (hostOps1_2 : List (HloOp τ sig (Elt F))).Forall fun op => Proc.devRef .tc main_arg0 ∉ op.writes := by
  simp only [hostOps1_2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_2_main_arg1 : (hostOps1_2 : List (HloOp τ sig (Elt F))).Forall fun op => Proc.devRef .tc main_arg1 ∉ op.writes := by
  simp only [hostOps1_2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

theorem hostOps0_main_v5 : (hostOps0 : List (HloOp τ sig (Elt F))).Forall fun op => Proc.devRef .tc main_v5 ∉ op.writes := by
  simp only [hostOps0, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

/-- The points end as launched. -/
theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := after_kept _ _ _ hostOps1_2_main_arg0
    _ = W3 m ρ c (Proc.devRef .tc main_arg0) := after_kept _ _ _ hostOps1_1_main_arg0
    _ = W2 m ρ c (Proc.devRef .tc main_arg0) := after_kept _ _ _ hostOps1_main_arg0
    _ = W1 m ρ c (Proc.devRef .tc main_arg0) := W2_of_ne m ρ c main_arg0 (by decide)
    _ = W0 m ρ c (Proc.devRef .tc main_arg0) := after_kept _ _ _ hostOps0_main_arg0
    _ = m ((c : Thread nD τ).loc main_arg0) := rfl

/-- The triplets end as launched. -/
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := after_kept _ _ _ hostOps1_2_main_arg1
    _ = W3 m ρ c (Proc.devRef .tc main_arg1) := after_kept _ _ _ hostOps1_1_main_arg1
    _ = W2 m ρ c (Proc.devRef .tc main_arg1) := after_kept _ _ _ hostOps1_main_arg1
    _ = W1 m ρ c (Proc.devRef .tc main_arg1) := W2_of_ne m ρ c main_arg1 (by decide)
    _ = W0 m ρ c (Proc.devRef .tc main_arg1) := after_kept _ _ _ hostOps0_main_arg1
    _ = m ((c : Thread nD τ).loc main_arg1) := rfl

/-- At the region's exit the triplets are as launched. -/
theorem W2_main_arg1 (c : Dev nD) : W2 m ρ c (Proc.devRef .tc main_arg1) = m ((c : Thread nD τ).loc main_arg1) :=
  (W2_of_ne m ρ c main_arg1 (by decide)).trans (after_kept _ _ _ hostOps0_main_arg1)

/-- THE FRAME: the program runs to the end, nothing faulting, and its two argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
      ⟨(h c _ (mem_uc main_arg0 (by decide))).trans (W5_main_arg0 m ρ c),
       (h c _ (mem_uc main_arg1 (by decide))).trans (W5_main_arg1 m ρ c)⟩)
    (run_main m ρ)

end Cert.Kernel.Hand

end
-- ==== Proof.LibRowCol.lean ====
/-
  A vector seen as a one-column or a one-row array, and the layout operations that compute those views.

  `colOf y` is the `[n, 1]` array whose entry `(p, 0)` is `y p`; `rowOf b` the `[1, k]` array whose entry `(0, q)` is
  `b q`.  A reshape of `[n]` to `[n, 1]` is the column view and a reshape of `[k]` to `[1, k]` the row view
  (`shapeCast_col`, `shapeCast_row`); a view read at an index is the vector at ANY index with the same coordinate
  (`colOf_eq`, `rowOf_eq`), which is how a chain of broadcasts that ends in the vector is matched with the view.
  An `[a, 1]` array broadcast to `[a, b]` reads its one column in the row (`broadcastTo_a1_ab_apply`), and an `[a]`
  array cast to `[a, 1]` reads the vector in the row (`shapeCast_a_a1_apply`).  Over generic extents; indices are built
  from coordinates.
-/
import Idealize.ShloMosaic.Lib.Pipeline.Value
import Idealize.ShloMosaic.Lib.ValueIdx
import Idealize.ShloMosaic.Lib.ValueLayout

noncomputable section

namespace RowCol

open Idealize.ShloMosaic Idealize.ShloMosaic.ValueIdx

/-! ## Layout operations at coordinates -/

section Layout
variable {α : Type}

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if 1 = 1 then 0 else c.val
    exact (if_pos rfl).symm

/-- An `[a]` array cast to `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

end Layout

/-! ## Column and row views of a vector of extended reals -/

/-- A vector as a one-column array. -/
def colOf {n : ℕ} (y : (⟨1, ![n]⟩ : Shape).Idx → EReal) : (⟨2, ![n, 1]⟩ : Shape).Idx → EReal :=
  fun i => y (ix1 ⟨(i 0).val, idx2_lt0 i⟩)

/-- A vector as a one-row array. -/
def rowOf {k : ℕ} (b : (⟨1, ![k]⟩ : Shape).Idx → EReal) : (⟨2, ![1, k]⟩ : Shape).Idx → EReal :=
  fun i => b (ix1 ⟨(i 1).val, idx2_lt1 i⟩)

theorem colOf_ix2 {n : ℕ} (y : (⟨1, ![n]⟩ : Shape).Idx → EReal) (p : Fin n) (u : Fin 1) : colOf y (ix2 p u) = y (ix1 p) := rfl
theorem rowOf_ix2 {k : ℕ} (b : (⟨1, ![k]⟩ : Shape).Idx → EReal) (u : Fin 1) (q : Fin k) : rowOf b (ix2 u q) = b (ix1 q) := rfl

/-- The column view at an index is the vector at any index with the same row number. -/
theorem colOf_eq {n : ℕ} (y : (⟨1, ![n]⟩ : Shape).Idx → EReal) (i : (⟨2, ![n, 1]⟩ : Shape).Idx) (k : (⟨1, ![n]⟩ : Shape).Idx)
    (hk : (k 0).val = (i 0).val) : colOf y i = y k :=
  congrArg y (funext fun a => Fin.ext (match a with | ⟨0, _⟩ => hk.symm))

/-- The row view at an index is the vector at any index with the same column number. -/
theorem rowOf_eq {k : ℕ} (b : (⟨1, ![k]⟩ : Shape).Idx → EReal) (i : (⟨2, ![1, k]⟩ : Shape).Idx) (l : (⟨1, ![k]⟩ : Shape).Idx)
    (hl : (l 0).val = (i 1).val) : rowOf b i = b l :=
  congrArg b (funext fun a => Fin.ext (match a with | ⟨0, _⟩ => hl.symm))

/-- A reshape of a vector to one column is its column view. -/
theorem shapeCast_col {n : ℕ} (y : (⟨1, ![n]⟩ : Shape).Idx → EReal) (h : (⟨1, ![n]⟩ : Shape).ShapeCasts ⟨2, ![n, 1]⟩) :
    shapeCast ⟨2, ![n, 1]⟩ y h = colOf y := by
  funext i
  obtain ⟨p, u, rfl⟩ : ∃ (p : Fin n) (u : Fin 1), i = ix2 p u := ⟨i 0, i 1, eq_ix2 i⟩
  rw [shapeCast_a_a1_apply, colOf_ix2]

/-- A reshape of a vector to one row is its row view. -/
theorem shapeCast_row {k : ℕ} (b : (⟨1, ![k]⟩ : Shape).Idx → EReal) (h : (⟨1, ![k]⟩ : Shape).ShapeCasts ⟨2, ![1, k]⟩) :
    shapeCast ⟨2, ![1, k]⟩ b h = rowOf b := by
  funext i
  obtain ⟨u, q, rfl⟩ : ∃ (u : Fin 1) (q : Fin k), i = ix2 u q := ⟨i 0, i 1, eq_ix2 i⟩
  rw [shapeCast_a_1a_apply, rowOf_ix2]

end RowCol

end
-- ==== Proof.TilePayload.lean ====
/-
  One entry of a tile of the table of distances, as the tile body's arithmetic computes it.

  The body takes two row tiles of the points (1024 rows of 512 coordinates each), one column of 1024 squared lengths
  and one row of 1024 squared lengths.  Entry (p, q) of its result is

      max ((column p + row q) - 2 · ∑ k, left (p, k) · right (q, k)) 0 ,

  the product being the matrix unit's, of the two tiles contracted along their 512 coordinates, onto the zero
  accumulator (which adds nothing).  The casts of a tile to its own shape are the identity; a column broadcast across
  the tile reads its row number, a row broadcast down the tile its column number; `2` and `0` stay the words the
  body spells.
-/
import proofs.«162330_j15796889714897_1_alg».proof.Proof.Gen.KernelIdeal.Skeleton
import proofs.«162330_j15796889714897_1_alg».proof.Proof.LibRowCol
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelSide

open Idealize.ShloMosaic Idealize.ShloMosaic.ValueIdx Cert.KernelIdeal Cert.KernelIdeal.Gen

/-- The left operand of the tile product is read at (row of the entry, contracted coordinate). -/
theorem tile_lhs_0 (j : S1024x1024.Idx) (c : dot_S1024x512_S1024x512_S1024x1024_1_1_0_0_n_n.contr.Idx) :
    (dot_S1024x512_S1024x512_S1024x1024_1_1_0_0_n_n.lhsIdx j c 0).val = (j 0).val := by
  unfold DotDims.lhsIdx
  rw [dif_neg (show ¬(0 : Fin S1024x512.rank) ∈ dot_S1024x512_S1024x512_S1024x1024_1_1_0_0_n_n.lhsBatch by decide),
    dif_pos (show (0 : Fin S1024x512.rank) ∈ dot_S1024x512_S1024x512_S1024x1024_1_1_0_0_n_n.lhsNonContracting by decide)]
  rfl
theorem tile_lhs_1 (j : S1024x1024.Idx) (c : dot_S1024x512_S1024x512_S1024x1024_1_1_0_0_n_n.contr.Idx) :
    (dot_S1024x512_S1024x512_S1024x1024_1_1_0_0_n_n.lhsIdx j c 1).val = (c ⟨0, by decide⟩).val :=
  dot_S1024x512_S1024x512_S1024x1024_1_1_0_0_n_n.lhsIdx_val_of_single rfl j c
/-- The right operand is read at (column of the entry, contracted coordinate): both tiles are contracted along
    their second axis. -/
theorem tile_rhs_0 (j : S1024x1024.Idx) (c : dot_S1024x512_S1024x512_S1024x1024_1_1_0_0_n_n.contr.Idx) :
    (dot_S1024x512_S1024x512_S1024x1024_1_1_0_0_n_n.rhsIdx j c 0).val = (j 1).val := by
  unfold DotDims.rhsIdx
  rw [dif_neg (show ¬(0 : Fin S1024x512.rank) ∈ dot_S1024x512_S1024x512_S1024x1024_1_1_0_0_n_n.rhsBatch by decide),
    dif_pos (show (0 : Fin S1024x512.rank) ∈ dot_S1024x512_S1024x512_S1024x1024_1_1_0_0_n_n.rhsNonContracting by decide)]
  rfl
theorem tile_rhs_1 (j : S1024x1024.Idx) (c : dot_S1024x512_S1024x512_S1024x1024_1_1_0_0_n_n.contr.Idx) :
    (dot_S1024x512_S1024x512_S1024x1024_1_1_0_0_n_n.rhsIdx j c 1).val = (c ⟨0, by decide⟩).val :=
  dot_S1024x512_S1024x512_S1024x1024_1_1_0_0_n_n.rhsIdx_val_of_single rfl j c

/-- The matrix unit's product of two 1024 × 512 tiles onto the zero accumulator: entry (p, q) is the inner product
    of row p of the left tile with row q of the right one. -/
theorem tile_product_entry (a b : FVec Ideal S1024x512 .bf16) (p q : Fin 1024) :
    FloatOps.matmul dot_S1024x512_S1024x512_S1024x1024_1_1_0_0_n_n none a b
        (constant (F := Ideal) S1024x1024 .f32 0x00000000#32) (ix2 p q)
      = ∑ k : Fin 512, a (ix2 p k) * b (ix2 q k) := by
  rw [Ideal.matmul_constant_zero_apply,
    ← Equiv.sum_comp (contrEquiv1 dot_S1024x512_S1024x512_S1024x1024_1_1_0_0_n_n 512 rfl rfl).symm]
  refine Finset.sum_congr rfl fun k _ => ?_
  have hk := contrEquiv1_symm_val dot_S1024x512_S1024x512_S1024x1024_1_1_0_0_n_n 512 rfl rfl k
  have el : dot_S1024x512_S1024x512_S1024x1024_1_1_0_0_n_n.lhsIdx (ix2 p q)
      ((contrEquiv1 dot_S1024x512_S1024x512_S1024x1024_1_1_0_0_n_n 512 rfl rfl).symm k) = ix2 p k :=
    funext fun x => Fin.ext (by
      match x with
      | ⟨0, _⟩ => exact tile_lhs_0 _ _
      | ⟨1, _⟩ => exact (tile_lhs_1 _ _).trans hk)
  have er : dot_S1024x512_S1024x512_S1024x1024_1_1_0_0_n_n.rhsIdx (ix2 p q)
      ((contrEquiv1 dot_S1024x512_S1024x512_S1024x1024_1_1_0_0_n_n 512 rfl rfl).symm k) = ix2 q k :=
    funext fun x => Fin.ext (by
      match x with
      | ⟨0, _⟩ => exact tile_rhs_0 _ _
      | ⟨1, _⟩ => exact (tile_rhs_1 _ _).trans hk)
  rw [el, er]

/-- The tile body's result at entry (p, q). -/
theorem tile_entry (v0 v2 : Vec Ideal S1024x512 .bf16) (v5 : Vec Ideal S1024x1 .f32) (v7 : Vec Ideal S1x1024 .f32)
    (p q : Fin 1024) :
    Gen.k0_pay1 (F := Ideal) v0 v2 v5 v7 (ix2 p q)
      = max ((v5 (ix2 p 0) + v7 (ix2 0 q))
          - Ideal.ofBits .f32 0x40000000#32 * ∑ k : Fin 512, v0 (ix2 p k) * v2 (ix2 q k))
        (Ideal.ofBits .f32 0x00000000#32) := by
  unfold Gen.k0_pay1
  simp only [shapeCast_self]
  refine congrArg₂ max (congrArg₂ (· - ·) (congrArg₂ (· + ·) ?_ ?_) (congrArg (Ideal.ofBits .f32 0x40000000#32 * ·) ?_)) rfl
  · exact RowCol.broadcastTo_a1_ab_apply v5 broadcasts_S1024x1_S1024x1024 p q
  · exact broadcastTo_1b_ab_apply v7 broadcasts_S1x1024_S1024x1024 p q
  · exact tile_product_entry v0 v2 p q

end Cert.KernelSide

end
-- ==== Proof.DistSpec.lean ====
/-
  The mathematics of this certificate, with no program in sight.

  For an array `x` of 8192 rows of 512 extended reals, `rowSq x i` is the squared length of row `i`
  (a sum started from the zero word, as a host reduction starts it), `gram x i j` the inner product of rows
  `i` and `j`, and `dist x` the 8192 × 8192 array of clamped squared distances

      dist x (i, j) = max ((rowSq x i + rowSq x j) - 2 · gram x i j) 0 .

  Both programs compute exactly this array — one tile of 1024 × 1024 entries at a time from row tiles of `x`,
  the other in one piece — and then apply the same finishing function to it.  No algebraic law relates the two
  sides beyond naming the summation index, so nothing here needs the inputs to be finite.
-/
import Idealize.ShloMosaic.PureOps.Ideal
import Idealize.ShloMosaic.Lib.ValueIdx

noncomputable section

namespace Cert.PairDist

open Idealize.ShloMosaic Idealize.ShloMosaic.ValueIdx

/-- The shape of the points: 8192 rows of 512 coordinates. -/
abbrev SX : Shape := ⟨2, ![8192, 512]⟩
/-- The shape of the table of distances. -/
abbrev SD : Shape := ⟨2, ![8192, 8192]⟩

/-- The squared length of row `i`, summed from the zero word. -/
def rowSq (x : SX.Idx → EReal) (i : Fin 8192) : EReal :=
  Ideal.ofBits .f32 0x00000000#32 + ∑ k : Fin 512, x (ix2 i k) * x (ix2 i k)

/-- The inner product of rows `i` and `j`. -/
def gram (x : SX.Idx → EReal) (i j : Fin 8192) : EReal :=
  ∑ k : Fin 512, x (ix2 i k) * x (ix2 j k)

/-- The clamped squared distance between rows `i` and `j`; `2` and `0` are kept as the words both programs spell. -/
def distAt (x : SX.Idx → EReal) (i j : Fin 8192) : EReal :=
  max ((rowSq x i + rowSq x j) - Ideal.ofBits .f32 0x40000000#32 * gram x i j) (Ideal.ofBits .f32 0x00000000#32)

/-- The whole table. -/
def dist (x : SX.Idx → EReal) : SD.Idx → EReal := fun ij => distAt x (ij 0) (ij 1)

theorem dist_ix2 (x : SX.Idx → EReal) (i j : Fin 8192) : dist x (ix2 i j) = distAt x i j := rfl

end Cert.PairDist

end
-- ==== Proof.Table.lean ====
/-
  From tiles to the table.

  Grid point `t` of the 8 × 8 grid writes back the 1024 × 1024 tile of the table whose rows are the rows of the
  first row tile it read and whose columns are the rows of the second.  The entry at `(p, q)` of that tile is the
  clamped squared distance between row `1024·t₀ + p` and row `1024·t₁ + q` of the points, because the first row
  tile, the column of squared lengths and the output tile move together along the grid's first coordinate, and
  the second row tile, the row of squared lengths and the output tile along the second.  The 64 tiles cover the
  table (the tile of entry `(i, j)` is the one at `(i / 1024, j / 1024)`), so after the last write-back the table
  holds `Cert.PairDist.dist` of the points, whatever it held at the start.
-/
import proofs.«162330_j15796889714897_1_alg».proof.Proof.Run
import proofs.«162330_j15796889714897_1_alg».proof.Proof.TilePayload
import proofs.«162330_j15796889714897_1_alg».proof.Proof.DistSpec
import Idealize.ShloMosaic.Lib.Pipeline.Value

set_option maxRecDepth 16384

noncomputable section

namespace Cert.KernelIdeal.HandValue

open Cert.KernelIdeal Cert.KernelIdeal.Gen Cert.KernelIdeal.Hand Cert.PairDist
open Idealize.ShloMosaic Idealize.ShloMosaic.TcCoe Idealize.ShloMosaic.ValueIdx
open Idealize.SL Idealize.SL.Sem
open Idealize.ShloMosaic.Pipeline (Dat Cfg Window)

theorem hz : (![0, 0] : Fin 2 → Nat) = fun _ => 0 := funext fun a => by fin_cases a <;> rfl

/-- How the five windows' block indices move over the grid, decided once over its 64 points. -/
theorem idx_facts : ∀ t : Fin cfg0.N,
    win0_0.index t (0 : Fin 2) = win0_4.index t (0 : Fin 2) ∧ win0_0.index t (1 : Fin 2) = 0
    ∧ win0_1.index t (0 : Fin 2) = win0_4.index t (1 : Fin 2) ∧ win0_1.index t (1 : Fin 2) = 0
    ∧ win0_2.index t (0 : Fin 2) = win0_4.index t (0 : Fin 2) ∧ win0_2.index t (1 : Fin 2) = 0
    ∧ win0_3.index t (0 : Fin 2) = 0 ∧ win0_3.index t (1 : Fin 2) = win0_4.index t (1 : Fin 2)
    ∧ win0_4.index t (0 : Fin 2) ≤ 7 ∧ win0_4.index t (1 : Fin 2) ≤ 7 :=
  (by decide +kernel : ∀ t : Fin grid0.N, _)

/-- Every tile of the table is some point's. -/
theorem idx_onto : ∀ (q0 q1 : Fin 8), ∃ t : Fin cfg0.N, win0_4.index t = ![q0.val, q1.val] :=
  (by decide +kernel : ∀ (q0 q1 : Fin 8), ∃ t : Fin grid0.N, win0_4.index t = ![q0.val, q1.val])

/-- One tile entry is one table entry, when the loaded tiles hold the rows and squared lengths they should. -/
theorem tile_is_dist (x : SX.Idx → EReal) (a b : Vec Ideal S1024x512 .bf16) (cc : Vec Ideal S1024x1 .f32) (rr : Vec Ideal S1x1024 .f32)
    (I J : Fin 8192) (j : S1024x1024.Idx)
    (ha : ∀ k : Fin 512, a (ix2 (j 0) k) = x (ix2 I k)) (hb : ∀ k : Fin 512, b (ix2 (j 1) k) = x (ix2 J k))
    (hc : cc (ix2 (j 0) 0) = rowSq x I) (hr : rr (ix2 0 (j 1)) = rowSq x J) :
    k0_pay1 (F := Ideal) a b cc rr j = distAt x I J := by
  obtain ⟨p, q, rfl⟩ : ∃ (p q : Fin 1024), j = ix2 p q := ⟨j 0, j 1, eq_ix2 j⟩
  rw [Cert.KernelSide.tile_entry]
  unfold distAt gram
  rw [show cc (ix2 p 0) = rowSq x I from hc, show rr (ix2 0 q) = rowSq x J from hr]
  refine congrArg (fun s => max ((rowSq x I + rowSq x J) - Ideal.ofBits .f32 0x40000000#32 * s) (Ideal.ofBits .f32 0x00000000#32)) ?_
  exact Finset.sum_congr rfl fun k _ => by rw [show a (ix2 p k) = x (ix2 I k) from ha k, show b (ix2 q k) = x (ix2 J k) from hb k]

section
variable (V : (c : Dev nD) → (b : Ref sig .tc) → Buf (Elt Ideal) ((c : Thread nD τ).loc b))
variable (c : Dev nD) (x : SX.Idx → EReal)
  (h0 : (V c main_v0 : S8192x512.Idx → EReal) = x)
  (h3 : ∀ i : Fin 8192, (V c main_v3 : S8192x1.Idx → EReal) (ix2 i 0) = rowSq x i)
  (h4 : ∀ j : Fin 8192, (V c main_v4 : S1x8192.Idx → EReal) (ix2 0 j) = rowSq x j)

include h0 h3 h4 in
/-- What point `t` writes back is tile `t` of the table of distances. -/
theorem flushed_eq (t : Fin cfg0.N) :
    (dat0 V c).flushed 4 t = ((cfg0.win 4).blk t).view.read (Elt Ideal) (dist x) := by
  show (cfg0.win 4).cut (grid0.coords t) ((dat0 V c).after 4 t) = _
  rw [after_4]
  unfold outTile
  rw [View.canon_unit_zero hz]
  simp only [View.ld_unit_zero (S := S1024x512) hz, View.ld_unit_zero (S := S1024x1) hz, View.ld_unit_zero (S := S1x1024) hz]
  obtain ⟨e0, e0', e1, e1', e2, e2', e3, e3', b0, b1⟩ := idx_facts t
  funext j
  have hj0 : (j 0).val < 1024 := (j 0).isLt
  have hj1 : (j 1).val < 1024 := (j 1).isLt
  refine (tile_is_dist x _ _ _ _ ((((cfg0.win 4).blk t).view.emb j) 0) ((((cfg0.win 4).blk t).view.emb j) 1) j ?_ ?_ ?_ ?_).trans rfl
  · intro k
    show V c main_v0 (((cfg0.win 0).blk t).view.emb (ix2 (j 0) k)) = _
    rw [h0]
    refine congrArg x (funext fun a => Fin.ext ?_)
    match a with
    | ⟨0, _⟩ => show win0_0.index t (0 : Fin 2) * 1024 + 1 * (j 0).val = win0_4.index t (0 : Fin 2) * 1024 + 1 * (j 0).val; omega
    | ⟨1, _⟩ => show win0_0.index t (1 : Fin 2) * 512 + 1 * k.val = k.val; omega
  · intro k
    show V c main_v0 (((cfg0.win 1).blk t).view.emb (ix2 (j 1) k)) = _
    rw [h0]
    refine congrArg x (funext fun a => Fin.ext ?_)
    match a with
    | ⟨0, _⟩ => show win0_1.index t (0 : Fin 2) * 1024 + 1 * (j 1).val = win0_4.index t (1 : Fin 2) * 1024 + 1 * (j 1).val; omega
    | ⟨1, _⟩ => show win0_1.index t (1 : Fin 2) * 512 + 1 * k.val = k.val; omega
  · show V c main_v3 (((cfg0.win 2).blk t).view.emb (ix2 (j 0) 0)) = _
    refine Eq.trans (congrArg (V c main_v3 : S8192x1.Idx → EReal) (funext fun a => Fin.ext ?_)) (h3 _)
    match a with
    | ⟨0, _⟩ => show win0_2.index t (0 : Fin 2) * 1024 + 1 * (j 0).val = win0_4.index t (0 : Fin 2) * 1024 + 1 * (j 0).val; omega
    | ⟨1, _⟩ => show win0_2.index t (1 : Fin 2) * 1 + 1 * 0 = 0; omega
  · show V c main_v4 (((cfg0.win 3).blk t).view.emb (ix2 0 (j 1))) = _
    refine Eq.trans (congrArg (V c main_v4 : S1x8192.Idx → EReal) (funext fun a => Fin.ext ?_)) (h4 _)
    match a with
    | ⟨0, _⟩ => show win0_3.index t (0 : Fin 2) * 1 + 1 * 0 = 0; omega
    | ⟨1, _⟩ => show win0_3.index t (1 : Fin 2) * 1024 + 1 * (j 1).val = win0_4.index t (1 : Fin 2) * 1024 + 1 * (j 1).val; omega

/-- An entry of the table is in point `t`'s tile iff each coordinate is in the tile's range on its axis. -/
theorem mem_blk (t : Fin cfg0.N) (i : S8192x8192.Idx) :
    i ∈ ((cfg0.win 4).blk t).view.set ↔ ∀ a : Fin 2, win0_4.index t a * S1024x1024.size a ≤ (i a).val ∧ (i a).val < win0_4.index t a * S1024x1024.size a + S1024x1024.size a := by
  show i ∈ ((View.whole main_v5).slice (win0_4.rect t)).set ↔ _
  rw [View.set_slice_whole, Rect.mem_set_unit]
  exact Iff.rfl

/-- The 64 tiles cover the table. -/
theorem cover (i : S8192x8192.Idx) : ∃ t : Fin cfg0.N, (cfg0.win 4).flush t = true ∧ i ∈ ((cfg0.win 4).blk t).view.set := by
  have hi0 : (i 0).val < 8192 := (i 0).isLt
  have hi1 : (i 1).val < 8192 := (i 1).isLt
  obtain ⟨t, ht⟩ := idx_onto ⟨(i 0).val / 1024, by omega⟩ ⟨(i 1).val / 1024, by omega⟩
  have q0 : win0_4.index t (0 : Fin 2) = (i 0).val / 1024 := congrFun ht 0
  have q1 : win0_4.index t (1 : Fin 2) = (i 1).val / 1024 := congrFun ht 1
  refine ⟨t, flush0_4 t, ?_⟩
  rw [mem_blk]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 1024 ≤ (i 1).val ∧ (i 1).val < win0_4.index t (1 : Fin 2) * 1024 + 1024; omega

include h0 h3 h4 in
/-- After the last write-back the table's buffer holds the table of distances. -/
theorem final : (dat0 V c).arrAt 4 cfg0.N = dist x :=
  (dat0 V c).arrAt_eq_of_cover 4 (dist x) (fun t _ => flushed_eq V c x h0 h3 h4 t) cover

end

end Cert.KernelIdeal.HandValue

end
-- ==== Proof.HostValues.lean ====
/-
  What the host operations before the tiled region leave in the buffers, from any contents of the buffers.

  From points `x` (the first argument) they compute: the points once more in the narrower format, which at the
  extended reals is `x` itself; the squared length of every row, summed from the zero word; and that vector twice
  more, as one column and as one row.  Read at coordinates: the copy at (i, k) is `x (i, k)`, the column at (i, 0)
  and the row at (0, j) are the squared lengths `rowSq x i` and `rowSq x j`.  Neither argument is written.
-/
import proofs.«162330_j15796889714897_1_alg».proof.Proof.Gen.KernelIdeal.Launch
import proofs.«162330_j15796889714897_1_alg».proof.Proof.DistSpec
import proofs.«162330_j15796889714897_1_alg».proof.Proof.LibRowCol
import Idealize.ShloMosaic.Lib.ValueIdx
import Idealize.ShloMosaic.Lib.Pipeline.Value
import Idealize.ShloMosaic.Lib.ValueLayout
import Idealize.ShloMosaic.PureOps.Ideal.Laws
import Idealize.ShloMosaic.Lib.StableHlo.Run

noncomputable section

open scoped BigOperators

namespace Cert.KernelSide

open Idealize.ShloMosaic Idealize.ShloMosaic.ValueIdx Idealize.ShloMosaic.TcCoe Idealize.SL.Sem Idealize.ShloMosaic.StableHlo
open Cert.KernelIdeal Cert.KernelIdeal.Gen

/-- The points in a valuation: the contents of the first argument. -/
abbrev pts (W : Valuation τ sig (Elt Ideal)) : (⟨S8192x512, .f32⟩ : BufTy).Contents (Elt Ideal) :=
  W (Proc.devRef .tc main_arg0)

/-- The vector of squared row lengths as the host computes it: the row sums of the squares, from the zero word. -/
def sqLen (x : FVec Ideal S8192x512 .f32) : FVec Ideal S8192 .f32 :=
  Host.reduceAdd (F := Ideal) (mulf x x) (constant (F := Ideal) S_ .f32 0x00000000#32) reducesTo_S8192x512_S8192_d1 h_S_

/-- Entry `i` of that vector is the squared length of row `i`. -/
theorem sqLen_apply (x : FVec Ideal S8192x512 .f32) (i : Fin 8192) :
    sqLen x (ix1 i) = Cert.PairDist.rowSq x i := by
  unfold sqLen Cert.PairDist.rowSq
  simp only [Host.reduceAdd, Ideal.hostReduceAdd_def]
  rw [Ideal.hostReduceAdd_single reducesTo_S8192x512_S8192_d1 (by decide)]
  refine congrArg₂ (· + ·) rfl (Finset.sum_congr rfl fun k _ => ?_)
  refine (mulf_apply x x _).trans ?_
  have e : ∀ j : S8192x512.Idx, j = ix2 i k → x j * x j = x (ix2 i k) * x (ix2 i k) := fun j h => by subst h; rfl
  exact e _ (funext fun a => Fin.ext (by match a with | ⟨0, _⟩ => rfl | ⟨1, _⟩ => rfl))

section Before

variable (W : Valuation τ sig (Elt Ideal))

/-- The narrowed copy of the points. -/
theorem before_copy :
    @Eq (FVec Ideal S8192x512 .bf16) (StableHlo.after (hostOps0 (F := Ideal)) W (Proc.devRef .tc main_v0))
      (truncf .bf16 (pts W) bitsLt_bf16_f32) := by
  after_results

/-- The squared lengths as one column. -/
theorem before_col :
    @Eq (FVec Ideal S8192x1 .f32) (StableHlo.after (hostOps0 (F := Ideal)) W (Proc.devRef .tc main_v3))
      (shapeCast S8192x1 (sqLen (pts W)) shapeCasts_S8192_S8192x1) := by
  after_results; rfl

/-- The squared lengths as one row. -/
theorem before_row :
    @Eq (FVec Ideal S1x8192 .f32) (StableHlo.after (hostOps0 (F := Ideal)) W (Proc.devRef .tc main_v4))
      (shapeCast S1x8192 (sqLen (pts W)) shapeCasts_S8192_S1x8192) := by
  after_results; rfl

/-- The copy at (i, k) is the point's coordinate: the change of format is the identity on extended reals. -/
theorem before_copy_apply (i : Fin 8192) (k : Fin 512) :
    @Eq EReal (StableHlo.after (hostOps0 (F := Ideal)) W (Proc.devRef .tc main_v0) (ix2 i k)) (pts W (ix2 i k)) :=
  congrFun (before_copy W) (ix2 i k)

/-- The column at (i, 0) is the squared length of row `i`. -/
theorem before_col_apply (i : Fin 8192) :
    @Eq EReal (StableHlo.after (hostOps0 (F := Ideal)) W (Proc.devRef .tc main_v3) (ix2 i 0))
      (Cert.PairDist.rowSq (pts W) i) :=
  (congrFun (before_col W) (ix2 i 0)).trans
    ((RowCol.shapeCast_a_a1_apply (sqLen (pts W)) shapeCasts_S8192_S8192x1 i 0).trans (sqLen_apply (pts W) i))

/-- The row at (0, j) is the squared length of row `j`. -/
theorem before_row_apply (j : Fin 8192) :
    @Eq EReal (StableHlo.after (hostOps0 (F := Ideal)) W (Proc.devRef .tc main_v4) (ix2 0 j))
      (Cert.PairDist.rowSq (pts W) j) :=
  (congrFun (before_row W) (ix2 0 j)).trans
    ((shapeCast_a_1a_apply (sqLen (pts W)) shapeCasts_S8192_S1x8192 0 j).trans (sqLen_apply (pts W) j))

/-- These operations write neither argument. -/
theorem before_arg0 :
    StableHlo.after (hostOps0 (F := Ideal)) W (Proc.devRef .tc main_arg0) = W (Proc.devRef .tc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.reshape_writes, Finset.mem_singleton]
    repeat' apply And.intro
    all_goals exact StableHlo.devRef_ne_of_ne (by decide)))
theorem before_arg1 :
    StableHlo.after (hostOps0 (F := Ideal)) W (Proc.devRef .tc main_arg1) = W (Proc.devRef .tc main_arg1) :=
  StableHlo.after_of_forall_not_mem (b := Proc.devRef .tc main_arg1) _ _ (List.forall_iff_forall_mem.mp (by
    simp only [hostOps0, List.Forall, StableHlo.nullary_writes, StableHlo.unary_writes, StableHlo.binary_writes,
      StableHlo.reshape_writes, Finset.mem_singleton]
    repeat' apply And.intro
    all_goals exact StableHlo.devRef_ne_of_ne (by decide)))

end Before

end Cert.KernelSide

end
-- ==== Proof.Finish.lean ====
/-
  The operations both programs apply to the table of distances, written once.

  From the 200000 triplets (a, p, n) of row numbers the three columns are taken apart; a negative row number
  is wrapped by adding 8192; the entries (a, p) and (a, n) of the table are looked up; and the result is the
  mean over the triplets of softplus (d(a, p) - d(a, n)), as a one-element array.  The softplus is spelt as
  the host spells it: max z 0 + log1p (exp (-|z - 0|)), guarded by a test of z - 0 against itself.
-/
import proofs.«162330_j15796889714897_1_alg».proof.ReferenceIdeal
import Idealize.ShloMosaic.PureOps.Ideal

noncomputable section

namespace Cert.RefSide

open Idealize.ShloMosaic Cert.ReferenceIdeal Cert.ReferenceIdeal.Facts₀

variable [Cert.ReferenceIdeal.Facts]

/-- Column 0 of the triplets: the anchors. -/
def col0 (trip : IVec S200000x3 32) : IVec S200000 32 :=
  shapeCast _ (extractStridedSlice S200000x1 ![0, 0] trip slices_S200000x3_S200000x1_0_0) shapeCasts_S200000x1_S200000

/-- Column 1 of the triplets: the positives. -/
def col1 (trip : IVec S200000x3 32) : IVec S200000 32 :=
  shapeCast _ (extractStridedSlice S200000x1 ![0, 1] trip slices_S200000x3_S200000x1_0_1) shapeCasts_S200000x1_S200000

/-- Column 2 of the triplets: the negatives. -/
def col2 (trip : IVec S200000x3 32) : IVec S200000 32 :=
  shapeCast _ (extractStridedSlice S200000x1 ![0, 2] trip slices_S200000x3_S200000x1_0_2) shapeCasts_S200000x1_S200000

/-- A negative row number counts from the end: 8192 is added to it. -/
def wrap (v : IVec S200000 32) : IVec S200000 32 :=
  select (cmpi .slt v (broadcastInDim S200000 ![] bcast_S_S200000 (constantI S_ 32 0#32)))
    (addi v (broadcastInDim S200000 ![] bcast_S_S200000 (constantI S_ 32 8192#32))) v

/-- Two vectors of row numbers side by side: one (row, column) pair per triplet. -/
def pairs (a b : IVec S200000 32) : IVec S200000x2 32 :=
  concatenate S200000x2 1
    [⟨S200000x1, (broadcastInDim S200000x1 ![0] bcast_S200000_S200000x1_0 a)⟩,
     ⟨S200000x1, (broadcastInDim S200000x1 ![0] bcast_S200000_S200000x1_0 b)⟩]
    concatenates_S200000x1_S200000x1_S200000x2_d1

/-- The table's entries at the given (row, column) pairs. -/
def look (d : FVec Ideal S8192x8192 .f32) (ij : IVec S200000x2 32) : FVec Ideal S200000 .f32 :=
  Host.gather gather_S8192x8192_S200000x2_S200000_n_01_n_n_01_1_11 d ij

/-- The zero word, at every triplet. -/
def zeros : FVec Ideal S200000 .f32 :=
  broadcastInDim S200000 ![] bcast_S_S200000 (constant (F := Ideal) S_ .f32 0x00000000#32)

/-- softplus, elementwise, as the host function spells it. -/
def softplus (z : FVec Ideal S200000 .f32) : FVec Ideal S200000 .f32 :=
  select (cmpf .une (subf z zeros) (subf z zeros)) (addf z zeros)
    (addf (maximumf z zeros)
      (Host.log1p (F := Ideal) (Host.exp (F := Ideal) (Host.negf (F := Ideal) (Host.absf (F := Ideal) (subf z zeros))))))

/-- The finishing function: from the table of distances and the triplets to the one-element result,
    the mean of softplus (d(a, p) - d(a, n)) over the triplets. -/
def finish (d : FVec Ideal S8192x8192 .f32) (trip : IVec S200000x3 32) : FVec Ideal S1 .f32 :=
  shapeCast _
    (Host.divf (F := Ideal)
      (Host.reduceAdd (F := Ideal)
        (softplus (subf (look d (pairs (wrap (col0 trip)) (wrap (col1 trip))))
                        (look d (pairs (wrap (col0 trip)) (wrap (col2 trip))))))
        (constant (F := Ideal) S_ .f32 0x00000000#32) reducesTo_S200000_S_d0 h_S_)
      (constant (F := Ideal) S_ .f32 0x48435000#32))
    shapeCasts_S_S1

end Cert.RefSide

end
-- ==== Proof.HostTail.lean ====
/-
  What the host operations after the tiled region leave in the result buffer, from any contents of the buffers.

  They take the three columns of the triplets apart, wrap negative row numbers, look the two entries of the table up,
  and average the softplus of the differences: the finishing function, applied to whatever table the region left
  and to the triplets (the second argument).  The operations are the ones the finishing function is written from, in
  the same order and over the same literals, so once each buffer is replaced by the operation that filled it the two
  terms coincide.  Neither argument is written on the way.
-/
import proofs.«162330_j15796889714897_1_alg».proof.Proof.Gen.KernelIdeal.Launch
import proofs.«162330_j15796889714897_1_alg».proof.Proof.Gen.ReferenceIdeal
import proofs.«162330_j15796889714897_1_alg».proof.Proof.Finish
import Idealize.ShloMosaic.Lib.StableHlo.Run

noncomputable section

namespace Cert.KernelSide

open Idealize.ShloMosaic Idealize.ShloMosaic.TcCoe Idealize.SL.Sem Idealize.ShloMosaic.StableHlo
open Cert.KernelIdeal Cert.KernelIdeal.Gen

/-- The result buffer after the three stretches is the finishing function of the table and the triplets as the
    stretches find them. -/
theorem tail_eq (W : Valuation τ sig (Elt Ideal)) :
    @Eq (FVec Ideal S1 .f32)
      (StableHlo.after (List.flatten [hostOps1 (F := Ideal), hostOps1_1, hostOps1_2]) W (Proc.devRef .tc main_v44))
      (Cert.RefSide.finish (W (Proc.devRef .tc main_v5)) (W (Proc.devRef .tc main_arg1))) := by
  simp only [hostOps1, hostOps1_1, hostOps1_2, List.flatten_cons, List.flatten_nil, List.append_nil, List.cons_append,
    List.nil_append]
  after_results_simp
  rfl

/-- The same with the stretches concatenated. -/
theorem tail_eq_append (W : Valuation τ sig (Elt Ideal)) :
    @Eq (FVec Ideal S1 .f32)
      (StableHlo.after (hostOps1 (F := Ideal) ++ hostOps1_1 ++ hostOps1_2) W (Proc.devRef .tc main_v44))
      (Cert.RefSide.finish (W (Proc.devRef .tc main_v5)) (W (Proc.devRef .tc main_arg1))) := by
  have h := tail_eq W
  simp only [List.flatten_cons, List.flatten_nil, List.append_nil, ← List.append_assoc] at h
  exact h

/-- The stretches write neither argument. -/
theorem tail_arg0 (W : Valuation τ sig (Elt Ideal)) :
    StableHlo.after (List.flatten [hostOps1 (F := Ideal), hostOps1_1, hostOps1_2]) W (Proc.devRef .tc main_arg0)
      = W (Proc.devRef .tc main_arg0) :=
  StableHlo.after_of_forall_not_mem (b := Proc.devRef .tc main_arg0) _ _ (List.forall_iff_forall_mem.mp (by
    simp only [hostOps1, hostOps1_1, hostOps1_2, List.flatten_cons, List.flatten_nil, List.append_nil, List.cons_append,
      List.nil_append, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))
theorem tail_arg1 (W : Valuation τ sig (Elt Ideal)) :
    StableHlo.after (List.flatten [hostOps1 (F := Ideal), hostOps1_1, hostOps1_2]) W (Proc.devRef .tc main_arg1)
      = W (Proc.devRef .tc main_arg1) :=
  StableHlo.after_of_forall_not_mem (b := Proc.devRef .tc main_arg1) _ _ (List.forall_iff_forall_mem.mp (by
    simp only [hostOps1, hostOps1_1, hostOps1_2, List.flatten_cons, List.flatten_nil, List.append_nil, List.cons_append,
      List.nil_append, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

end Cert.KernelSide

end
-- ==== Proof.KernelResult.lean ====
/-
  The kernel program's result, in one formula.

  Before the tiled region the host leaves the points themselves (in the narrower format, which changes nothing at the
  extended reals), and the squared row lengths as a column and as a row; from these the region's 64 tiles make up the
  table of clamped squared distances of the points; the operations after the region apply the finishing function to
  that table and to the triplets, which nothing has written.  So the result buffer ends at the finishing function of
  the table of distances of the launched points and of the launched triplets.
-/
import proofs.«162330_j15796889714897_1_alg».proof.Proof.Kept
import proofs.«162330_j15796889714897_1_alg».proof.Proof.Table
import proofs.«162330_j15796889714897_1_alg».proof.Proof.HostValues
import proofs.«162330_j15796889714897_1_alg».proof.Proof.HostTail

set_option maxRecDepth 16384

noncomputable section

namespace Cert.KernelIdeal.HandValue

open Cert.KernelIdeal Cert.KernelIdeal.Gen Cert.KernelIdeal.Hand Cert.PairDist
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg) (c : Dev nD)

/-- At the region's exit the table's buffer holds the table of distances of the launched points. -/
theorem table_at_exit :
    @Eq (FVec Ideal S8192x8192 .f32) (W2 m ρ c (Proc.devRef .tc main_v5))
      (dist (m ((c : Thread nD τ).loc main_arg0))) :=
  (W2_out m ρ c).trans
    (final (V1 m ρ) c (m ((c : Thread nD τ).loc main_arg0))
      (Cert.KernelSide.before_copy (W0 m ρ c))
      (fun i => Cert.KernelSide.before_col_apply (W0 m ρ c) i)
      (fun j => Cert.KernelSide.before_row_apply (W0 m ρ c) j))

/-- The three finishing stretches one after the other are their concatenation run as one line. -/
theorem tail_split :
    StableHlo.after (hostOps1 (F := Ideal) ++ hostOps1_1 ++ hostOps1_2) (W2 m ρ c) = W5 m ρ c := by
  rw [StableHlo.after_append, StableHlo.after_append]

/-- The result buffer at the end: the finishing function of the table of distances and the triplets. -/
theorem kernel_result :
    @Eq (FVec Ideal S1 .f32) (W5 m ρ c (Proc.devRef .tc main_v44))
      (Cert.RefSide.finish (dist (m ((c : Thread nD τ).loc main_arg0))) (m ((c : Thread nD τ).loc main_arg1))) :=
  ((congrFun (tail_split m ρ c) (Proc.devRef .tc main_v44)).symm.trans
      (Cert.KernelSide.tail_eq_append (W2 m ρ c))).trans
    (congrArg₂ Cert.RefSide.finish (table_at_exit m ρ c) (W2_main_arg1 m ρ c))

end Cert.KernelIdeal.HandValue

end
-- ==== Proof.RefTable.lean ====
/-
  The reference side: the one-piece program computes the table of clamped squared distances of the
  specification, and then applies the finishing function to it.

  Entry (i, j) of the program's table is  max ((n i + n j) - 2 · g i j) 0,  where  n i  is the sum over k of
  x(i,k) · x(i,k)  started from the zero word, read through two broadcasts (a column for the first summand, a row
  for the second), and  g i j  is the host contraction of x with its transpose: the sum over k of
  x(i,k) · xT(k,j),  and xT(k,j) is x(j,k).  That is the specification's entry, term for term.
-/
import proofs.«162330_j15796889714897_1_alg».proof.Proof.Gen.ReferenceIdeal.Read
import proofs.«162330_j15796889714897_1_alg».proof.Proof.DistSpec
import proofs.«162330_j15796889714897_1_alg».proof.Proof.Finish
import Idealize.ShloMosaic.Lib.ValueIdx
import Idealize.ShloMosaic.PureOps.Ideal.Laws

noncomputable section

namespace Cert.RefSide

open Cert.ReferenceIdeal Cert.ReferenceIdeal.Gen Idealize.ShloMosaic Idealize.ShloMosaic.TcCoe Idealize.SL.Sem Idealize.ShloMosaic.StableHlo
open Idealize.ShloMosaic.ValueIdx Cert.ReferenceIdeal.Read

/-- The program's table of distances, as a function of the points. -/
def table (x : FVec Ideal S8192x512 .f32) : FVec Ideal S8192x8192 .f32 := val_main_v13 (F := Ideal) x

/-- The program's result is the finishing function of its table. -/
theorem run_eq (x : FVec Ideal S8192x512 .f32) (trip : IVec S200000x3 32) :
    val_main_v52 (F := Ideal) x trip = finish (table x) trip := rfl

/-- Row i of the points at coordinate k, as the row sum reads it through the column broadcast. -/
theorem idx_rowL (i j : Fin 8192) (k : Fin 512) :
    idx_main_v1 (idx_main_v2 (idx_main_v4 (ix2 i j))) k = ix2 i k :=
  funext fun a => Fin.ext (by match a with | ⟨0, _⟩ => rfl | ⟨1, _⟩ => rfl)

/-- Row j of the points at coordinate k, as the row sum reads it through the row broadcast. -/
theorem idx_rowR (i j : Fin 8192) (k : Fin 512) :
    idx_main_v1 (idx_main_v3 (idx_main_v5 (ix2 i j))) k = ix2 j k :=
  funext fun a => Fin.ext (by match a with | ⟨0, _⟩ => rfl | ⟨1, _⟩ => rfl)

/-- The contraction's left factor: row i at coordinate k. -/
theorem idx_dotL (i j : Fin 8192) (k : Fin 512) : lidx_main_v8 (ix2 i j) k = ix2 i k :=
  funext fun a => Fin.ext (by match a with | ⟨0, _⟩ => rfl | ⟨1, _⟩ => rfl)

/-- The contraction's right factor, through the transpose: row j at coordinate k. -/
theorem idx_dotR (i j : Fin 8192) (k : Fin 512) : idx_main_v7 (ridx_main_v8 (ix2 i j) k) = ix2 j k :=
  funext fun a => Fin.ext (by match a with | ⟨0, _⟩ => rfl | ⟨1, _⟩ => rfl)

/-- The program's table is the specification's. -/
theorem table_eq (x : FVec Ideal S8192x512 .f32) : table x = Cert.PairDist.dist x := by
  funext ij
  obtain ⟨i, j, rfl⟩ : ∃ (i : Fin 8192) (j : Fin 8192), ij = ix2 i j := ⟨ij 0, ij 1, eq_ix2 ij⟩
  rw [Cert.PairDist.dist_ix2]
  unfold table Cert.PairDist.distAt Cert.PairDist.rowSq Cert.PairDist.gram
  simp only [val_main_v13_apply, val_main_v12_apply, val_main_cst_1_apply, val_main_v11_apply, val_main_v6_apply,
    val_main_v4_apply, val_main_v2_apply, val_main_v5_apply, val_main_v3_apply, val_main_v1_apply, val_main_cst_apply,
    val_main_v0_apply, val_main_v10_apply, val_main_v9_apply, val_main_cst_0_apply, val_main_v8_apply, val_main_v7_apply,
    idx_rowL, idx_rowR, idx_dotL, idx_dotR,
    Ideal.maximumf_def, Ideal.subf_def, Ideal.addf_def, Ideal.mulf_def, Ideal.ofBits_def]

/-- The reference program's result, in the specification's terms. -/
theorem ref_result (x : FVec Ideal S8192x512 .f32) (trip : IVec S200000x3 32) :
    val_main_v52 (F := Ideal) x trip = finish (Cert.PairDist.dist x) trip := by
  rw [run_eq, table_eq]

/-- The same, for the term the reference program's run leaves in its result array: `m` is the memory at launch,
    whose two argument arrays are the points and the triplets. -/
theorem ref_result_run (m : (ℓ : Loc nD τ sig) → Buf (Elt Ideal) ℓ) (c : Dev nD) :
    Cert.ReferenceIdeal.Value.res_main_v52 (F := Ideal) m c
      = finish (Cert.PairDist.dist (m ((c.tc : Thread nD τ).loc main_arg0))) (m ((c.tc : Thread nD τ).loc main_arg1)) :=
  (val_main_v52_eq (F := Ideal) m c).trans (ref_result _ _)

end Cert.RefSide

end
-- ==== Proof.lean ====
/-
  The certificate of the soft-triplet loss kernel.

  For 8192 points `x` of 512 coordinates and 200000 triplets of row numbers, both programs form the table
  `dist x (i, j) = max ((|x_i|² + |x_j|²) - 2 · ⟨x_i, x_j⟩) 0` of clamped squared distances and apply one and the
  same finishing function to it: the three columns of the triplets, negative row numbers wrapped by 8192, the two
  looked-up distances subtracted, the softplus of the difference, the mean over the triplets.  The kernel builds
  the table in 64 tiles of 1024 × 1024 entries, each from two row tiles of the points (read in the narrow float
  format, which at exact arithmetic is the points themselves) and the matching squared lengths; the reference
  builds it in one piece from the points and their transpose.  Entry by entry the two tables are the same
  extended real — the same sums over the same 512 products — so no law of arithmetic is needed, and no
  finiteness of the inputs.

  The three programs run to their ends and leave their arguments as they found them: the reference by its
  operations' run; the kernel, at both readings of its floats, by the run of its segments (host operations, the
  tiled region, host operations), in which the points' array — the source of both row-tile windows — is held by
  halves, one per window.  The idealized kernel is the kernel's own text, so there is nothing to preserve.
-/
import proofs.«162330_j15796889714897_1_alg».proof.Defs
import proofs.«162330_j15796889714897_1_alg».proof.Proof.Gen.Kernel
import proofs.«162330_j15796889714897_1_alg».proof.Proof.Gen.Kernel.Skeleton
import proofs.«162330_j15796889714897_1_alg».proof.Proof.Gen.Kernel.Launch
import proofs.«162330_j15796889714897_1_alg».proof.Proof.Gen.Kernel.Points
import proofs.«162330_j15796889714897_1_alg».proof.Proof.Gen.KernelIdeal
import proofs.«162330_j15796889714897_1_alg».proof.Proof.Gen.KernelIdeal.Skeleton
import proofs.«162330_j15796889714897_1_alg».proof.Proof.Gen.KernelIdeal.Launch
import proofs.«162330_j15796889714897_1_alg».proof.Proof.Gen.KernelIdeal.Points
import proofs.«162330_j15796889714897_1_alg».proof.Proof.Gen.ReferenceIdeal
import proofs.«162330_j15796889714897_1_alg».proof.Proof.Gen.ReferenceIdeal.Run
import proofs.«162330_j15796889714897_1_alg».proof.Proof.Gen.ReferenceIdeal.Read
import proofs.«162330_j15796889714897_1_alg».proof.Proof.Gen.Pre_finite_inputs
import proofs.«162330_j15796889714897_1_alg».proof.Proof.Kept
import proofs.«162330_j15796889714897_1_alg».proof.Proof.KKept
import proofs.«162330_j15796889714897_1_alg».proof.Proof.KernelResult
import proofs.«162330_j15796889714897_1_alg».proof.Proof.RefTable
import Idealize.ShloMosaic.Adequacy
import Idealize.ShloMosaic.Init

noncomputable section

namespace Cert.Proof

open Idealize.ShloMosaic Idealize.ShloMosaic.TcCoe Idealize.SL.Sem

/-- The kernel as printed runs to its end and keeps its arguments. -/
theorem frame_k : Cert.frame_Kernel := fun m ρ _ => Cert.Kernel.Hand.frame (F := Bits) m ρ

/-- So does its reading over the extended reals. -/
theorem frame_ki : Cert.frame_KernelIdeal := fun m ρ _ => Cert.KernelIdeal.Hand.frame (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten. -/
theorem preserves : Cert.preserves_Kernel_KernelIdeal := trivial

/-- Both runs end with the finishing function of the table of distances of the points, applied to the triplets. -/
theorem algebraic : Cert.algebraic_KernelIdeal_ReferenceIdeal := by
  intro m ρ m' ρ' _ hagree
  refine ⟨fun c => Cert.KernelIdeal.Hand.W5 m ρ c (Proc.devRef .tc Cert.KernelIdeal.main_v44), ?_, ?_⟩
  · exact (θ_run Cert.KernelIdeal.defs _ _).mono (fun r h c =>
      ⟨h c _ (Cert.KernelIdeal.Hand.mem_uc Cert.KernelIdeal.main_v44 (by decide)),
       (h c _ (Cert.KernelIdeal.Hand.mem_uc Cert.KernelIdeal.main_arg0 (by decide))).trans (Cert.KernelIdeal.Hand.W5_main_arg0 m ρ c),
       (h c _ (Cert.KernelIdeal.Hand.mem_uc Cert.KernelIdeal.main_arg1 (by decide))).trans (Cert.KernelIdeal.Hand.W5_main_arg1 m ρ c)⟩)
      (Cert.KernelIdeal.Hand.run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.RefSide.ref_result_run m' c, (hagree c).1, (hagree c).2]
    exact (Cert.KernelIdeal.HandValue.kernel_result m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
